-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x1024 : Shape := ⟨3, ![2, 8192, 1024]⟩
abbrev S8192x1024 : Shape := ⟨2, ![8192, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S2x8192x1024 .f32) (main_arg1 : FVec F S8192x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S2x8192x1024 : Shape := ⟨3, ![2, 8192, 1024]⟩
abbrev S8192x1024 : Shape := ⟨2, ![8192, 1024]⟩
abbrev S3x32x1024 : Shape := ⟨3, ![3, 32, 1024]⟩
abbrev S_ : Shape := ⟨0, ![]⟩
abbrev S1x32x1024 : Shape := ⟨3, ![1, 32, 1024]⟩
abbrev S32x1024 : Shape := ⟨2, ![32, 1024]⟩

abbrev nBuf : Table → Nat
  | .hbm => 3
  | .local .scVector .vmem => 1
  | _ => 0

abbrev bufTy : (tb : Table) → Fin (nBuf tb) → BufTy
  | .hbm, ⟨0, _⟩ => ⟨S2x8192x1024, .f32⟩
  | .hbm, ⟨1, _⟩ => ⟨S8192x1024, .f32⟩
  | .hbm, ⟨2, _⟩ => ⟨S8192x1024, .f32⟩
  | .local .scVector .vmem, ⟨0, _⟩ => ⟨S3x32x1024, .f32⟩
  | _, _ => ⟨S2x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_3 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S3x32x1024_S1x32x1024_0_0_0 : ∀ a, (![0, 0, 0] : Fin 3 → Nat) a + S1x32x1024.size a ≤ S3x32x1024.size a
  squeezes_S1x32x1024_S32x1024 : S1x32x1024.Squeezes S32x1024
  inb_S3x32x1024_S1x32x1024_1_0_0 : ∀ a, (![1, 0, 0] : Fin 3 → Nat) a + S1x32x1024.size a ≤ S3x32x1024.size a
  inb_S3x32x1024_S1x32x1024_2_0_0 : ∀ a, (![2, 0, 0] : Fin 3 → Nat) a + S1x32x1024.size a ≤ S3x32x1024.size a
  hcc0_scratch1 : 0 + S_.numel ≤ 6
  hcc0_scratch2 : 1 + S_.numel ≤ 6
  hcc0_scratch3 : 2 + S_.numel ≤ 6
  hcc0_scratch4 : 3 + S_.numel ≤ 6
  hcc0_scratch5 : 4 + S_.numel ≤ 6
  hcc0_scratch6 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 8), ∀ a, (k0_off1 i (BitVec.ofNat 32 (32 * r.val))) a + S32x1024.size a ≤ S8192x1024.size a

variable [Facts₀]

abbrev cc0_scratch1 : DmaSems sig S_ := SemArray.consecutive 0 S_ hcc0_scratch1
abbrev cc0_scratch2 : DmaSems sig S_ := SemArray.consecutive 1 S_ hcc0_scratch2
abbrev cc0_scratch3 : DmaSems sig S_ := SemArray.consecutive 2 S_ hcc0_scratch3
abbrev cc0_scratch4 : DmaSems sig S_ := SemArray.consecutive 3 S_ hcc0_scratch4
abbrev cc0_scratch5 : DmaSems sig S_ := SemArray.consecutive 4 S_ hcc0_scratch5
abbrev cc0_scratch6 : DmaSems sig S_ := SemArray.consecutive 5 S_ hcc0_scratch6

class Facts : Prop extends Facts₀ where

variable [Facts]
-- ==== ReferenceIdeal.lean ====
abbrev S2x8192x1024 : Shape := ⟨3, ![2, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.KISetup.lean ====
/-
  The copy kernel on the SparseCores, read as a family of threads: the vocabulary of its frame.
  The table f32[8192,1024] is cut along its rows into 256 chunks of 32 rows.  Vector subcore i of
  SparseCore c owns the eight chunks (2·i + c)·8 + g, g < 8: it moves each through one of three slots of
  its own scratch into the same rows of the result.  Here: the chunks as element sets of the two arrays
  (pairwise disjoint, covering the array), the slots as element sets of the scratch, and what the launch's
  handshakes carry — to a task its sixteen chunks, back from it the table's chunks unchanged and the
  result's chunks holding the table's rows.
-/
import proofs.«202655_g3478923510319_cont_8to1_b_1543_18_alg».proof.Defs
import Idealize.ShloMosaic.Lib.SparseCore.Launch
import Idealize.ShloMosaic.Lib.Pipeline.Kit
import Idealize.ShloMosaic.Lib.Tactic
import proofs.«202655_g3478923510319_cont_8to1_b_1543_18_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as a launch of SparseCore kernels -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their chunks -/

variable (m : (ℓ : Loc nD τ sig) → Buf (Elt F) ℓ)

/-- The unused first argument, the table, the result: as locations of device `d`. -/
abbrev aLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The table's contents at the launch, read as contents of the result array (the two arrays have one type). -/
abbrev tab (d : Dev nD) : Buf (Elt F) (oLoc d) := m (xLoc d)

theorem hdiv : 256 ∣ S8192x1024.size 0 := ⟨32, rfl⟩

/-- Chunk `g` of the eight of vector subcore `i` of SparseCore `c`, among the 256. -/
def nOf (c : Fin 2) (i : Fin 16) (g : Fin 8) : Fin 256 := ⟨(2 * i.val + c.val) * 8 + g.val, by omega⟩

theorem nOf_injective : Function.Injective fun t : Fin 2 × Fin 16 × Fin 8 => nOf t.1 t.2.1 t.2.2 := by
  rintro ⟨c, i, g⟩ ⟨c', i', g'⟩ h
  have h' : (2 * i.val + c.val) * 8 + g.val = (2 * i'.val + c'.val) * 8 + g'.val := congrArg Fin.val h
  have := c.isLt; have := c'.isLt; have := g.isLt; have := g'.isLt
  have hc : c = c' := Fin.ext (by omega)
  have hi : i = i' := Fin.ext (by omega)
  have hg : g = g' := Fin.ext (by omega)
  rw [hc, hi, hg]

theorem nOf_surjective (n : Fin 256) : ∃ t : Fin 2 × Fin 16 × Fin 8, nOf t.1 t.2.1 t.2.2 = n := by
  have := n.isLt
  exact ⟨(⟨(n.val / 8) % 2, by omega⟩, ⟨n.val / 16, by omega⟩, ⟨n.val % 8, by omega⟩), Fin.ext (by show (2 * (n.val / 16) + (n.val / 8) % 2) * 8 + n.val % 8 = n.val; omega)⟩

abbrev crect (c : Fin 2) (i : Fin 16) (g : Fin 8) : Rect S8192x1024 := Rect.part (s := S8192x1024) (a₀ := 0) hdiv (nOf c i g)
/-- The chunk's elements. -/
def cset (c : Fin 2) (i : Fin 16) (g : Fin 8) : Finset S8192x1024.Idx := (crect c i g).set

theorem csets_disjoint : ∀ t ∈ (Finset.univ : Finset (Fin 2 × Fin 16 × Fin 8)), ∀ t' ∈ (Finset.univ : Finset (Fin 2 × Fin 16 × Fin 8)), t ≠ t' →
    Disjoint (cset t.1 t.2.1 t.2.2) (cset t'.1 t'.2.1 t'.2.2) :=
  fun _ _ _ _ h => Rect.part_disjoint hdiv fun e => h (nOf_injective e)

theorem csets_cover : (Finset.univ : Finset (Fin 2 × Fin 16 × Fin 8)).biUnion (fun t => cset t.1 t.2.1 t.2.2) = Finset.univ := by
  rw [← Rect.biUnion_part (s := S8192x1024) (a₀ := 0) hdiv]
  ext x
  simp only [Finset.mem_biUnion, Finset.mem_univ, true_and]
  constructor
  · rintro ⟨t, ht⟩; exact ⟨_, ht⟩
  · rintro ⟨n, hn⟩
    obtain ⟨t, rfl⟩ := nOf_surjective n
    exact ⟨t, hn⟩

/-! ## What a task is handed, and what it hands back -/

/-- The eight chunks of one array that task `(c, i)` owns, at contents `f`. -/
def XS (d : Dev nD) (c : Fin 2) (i : Fin 16) (f : Buf (Elt F) (xLoc d)) : sProp 𝕄 :=
  bigSep Finset.univ fun g : Fin 8 => xLoc d ↦[cset c i g]{fullShare} f
def OS (d : Dev nD) (c : Fin 2) (i : Fin 16) (f : Buf (Elt F) (oLoc d)) : sProp 𝕄 :=
  bigSep Finset.univ fun g : Fin 8 => oLoc d ↦[cset c i g]{fullShare} f

/-- To the task: its chunks of the table and of the result, as the launch found them. -/
def GOf (d : Dev nD) (c : Fin 2) (i : Fin 16) : sProp 𝕄 := iprop(XS d c i (m (xLoc d)) ∗ OS d c i (m (oLoc d)))
/-- From the task: the table's chunks unchanged, the result's chunks holding the table's rows. -/
def TDf (d : Dev nD) (c : Fin 2) (i : Fin 16) : sProp 𝕄 := iprop(XS d c i (m (xLoc d)) ∗ OS d c i (tab m d))

omit m in
theorem fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

instance XS_storable (d : Dev nD) (c : Fin 2) (i : Fin 16) (f : Buf (Elt F) (xLoc d)) : BI.Storable (upEmb : UEmb _ 𝕄) (XS d c i f) := by
  unfold XS; rw [fin8]; infer_instance
instance OS_storable (d : Dev nD) (c : Fin 2) (i : Fin 16) (f : Buf (Elt F) (oLoc d)) : BI.Storable (upEmb : UEmb _ 𝕄) (OS d c i f) := by
  unfold OS; rw [fin8]; infer_instance
instance GOf_storable (d : Dev nD) (c : Fin 2) (i : Fin 16) : BI.Storable (upEmb : UEmb _ 𝕄) (GOf m d c i) := by
  unfold GOf; infer_instance
instance TDf_storable (d : Dev nD) (c : Fin 2) (i : Fin 16) : BI.Storable (upEmb : UEmb _ 𝕄) (TDf m d c i) := by
  unfold TDf; infer_instance

/-- The one call: a SparseCore is handed its sixteen tasks' chunks and hands back theirs; a task its own. -/
def P : (K (F := F)).Pay (nD := nD) (Val := Elt F) (Name := ℕ) (U := UU) where
  st := fun q d c => match q with
    | 0 => bigSep Finset.univ fun i : Fin 16 => GOf m d (Fin.cast nCore_zero c) i
  dn := fun q d c => match q with
    | 0 => bigSep Finset.univ fun i : Fin 16 => TDf m d (Fin.cast nCore_zero c) i
  go := fun q d c i => match q with
    | 0 => GOf m d (Fin.cast nCore_zero c) (Fin.cast nSub_zero i)
  td := fun q d c i => match q with
    | 0 => TDf m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => GOf m d (Fin.cast nCore_zero c) i))
  dn q d c := match q with
    | 0 => (inferInstance : BI.Storable (upEmb : UEmb _ 𝕄) (bigSep Finset.univ fun i : Fin 16 => TDf m d (Fin.cast nCore_zero c) i))
  go q d c i := match q with
    | 0 => (inferInstance : BI.Storable (upEmb : UEmb _ 𝕄) (GOf m d (Fin.cast nCore_zero c) (Fin.cast nSub_zero i)))
  td q d c i := match q with
    | 0 => (inferInstance : BI.Storable (upEmb : UEmb _ 𝕄) (TDf m d (Fin.cast nCore_zero c) (Fin.cast nSub_zero i)))

end Cert.Proof.KI

end
-- ==== Proof.LibWholeView.lean ====
/-
  Two general facts about contents read and written through a view of a buffer.

  `read_writes_whole_cons`: after a list of stores through rectangles of a view, the last of which went through
  the WHOLE of the view, the view reads back exactly that last payload — whatever the earlier stores and the
  prior contents were.  (A copy that fills a staging slot, or a chunk of an array, is such a store.)

  `eq_on_set_of_read_eq`: two contents of a buffer that read alike through a view agree on every element of
  the buffer that the view addresses — so an assertion that holds the buffer on exactly the view's elements
  cannot tell them apart (with `pointsTo_congr`: held on `v.set`, the buffer at `f` is the buffer at `f'`).
-/
import Idealize.ShloMosaic.Lib.Writes

namespace Cert.Proof.LibWholeView

open Idealize.ShloMosaic

variable {sig : RefSig} {κ : Kind} {sp : Space} {s : Shape} {e : EltTy} {Val : EltTy → Type}

/-- A store through the whole of a view, made last, reads back as its payload whatever was stored before. -/
theorem read_writes_whole_cons (v : View sig κ sp s e) (f : v.ty.Contents Val) (x : s.Idx → Val e) (Ls : List (View.Piece Val s e)) :
    v.read Val (v.writes Val f (⟨Rect.whole s, x⟩ :: Ls)) = x := by
  funext y
  have h := View.read_writes_cons_emb v f (Rect.whole s) x Ls y
  rwa [Rect.emb_whole_apply] at h

/-- Contents that read alike through a view agree on the view's own elements. -/
theorem eq_on_set_of_read_eq (v : View sig κ sp s e) (f f' : v.ty.Contents Val) (h : v.read Val f = v.read Val f') :
    ∀ i ∈ v.set, f i = f' i := by
  intro i hi
  obtain ⟨y, -, rfl⟩ := Finset.mem_map.mp hi
  have hy := congrFun h y
  rw [View.read_apply, View.read_apply] at hy
  have hc : ∀ {A B : Type} (hAB : A = B) (a b : A), _root_.cast hAB a = _root_.cast hAB b → a = b := by
    intro A B hAB; subst hAB; intro a b hab; exact hab
  exact hc _ _ _ hy

end Cert.Proof.LibWholeView
-- ==== Proof.KITileGeom.lean ====
/-
  One task of the copy kernel: its geometry.  Vector subcore i of SparseCore c moves its eight chunks of 32 rows from
  the table to the same rows of the result, each through one of three slots of its scratch: chunk g is
  fetched into slot g mod 3 and written out from it, the fetch of chunk g + 3 issued only after the
  write-out of chunk g has been waited for, so that no slot is written while it is still being read.
  Each copy carries its source's rows as they stand, so a slot after its fetch holds the chunk's rows
  of the table, and the result's chunk after its write-out holds the same rows: read through the chunk,
  the result is the table.
-/
import proofs.«202655_g3478923510319_cont_8to1_b_1543_18_alg».proof.Proof.KISetup
import proofs.«202655_g3478923510319_cont_8to1_b_1543_18_alg».proof.Proof.Gen.KernelIdeal.Skeleton
import proofs.«202655_g3478923510319_cont_8to1_b_1543_18_alg».proof.Proof.LibWholeView

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWholeView

variable {F : FTy → Type}

local notation "𝕄" => MT nD τ sig (HIx 1) (Elt F) ℕ UU ℕ

variable (m : (ℓ : Loc nD τ sig) → Buf (Elt F) ℓ)

-- the kernel's memrefs, spelt as the body table passes them
local notation "xW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S8192x1024 EltTy.f32)
local notation "sW" => (Memref.whole Cert.KernelIdeal.cc0_scratch0 : Memref Cert.KernelIdeal.sig Kind.scVector Space.vmem Cert.KernelIdeal.S3x32x1024 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev iL (L : grid0.Coords) : Fin 16 := Fin.cast bound_one (L 1)
/-- The task's thread. -/
abbrev thr (d : Dev nD) (L : grid0.Coords) : Thread nD τ := V d (cV L) (jV L)
abbrev sLoc (d : Dev nD) (L : grid0.Coords) : Loc nD τ sig := (thr d L).loc cc0_scratch0

/-- A chunk of the table, of the result, and the three slots of the scratch, as the body slices them. -/
abbrev xC (L : grid0.Coords) (o : BitVec 32) (h : ∀ a, k0_off1 L o a + S32x1024.size a ≤ S8192x1024.size a) : Memref sig .scVector .hbm S32x1024 .f32 :=
  (xW).slice (Rect.unit (s := S8192x1024) (k0_off1 L o) S32x1024.size h) (fun _ => rfl)
abbrev oC (L : grid0.Coords) (o : BitVec 32) (h : ∀ a, k0_off1 L o a + S32x1024.size a ≤ S8192x1024.size a) : Memref sig .scVector .hbm S32x1024 .f32 :=
  (oW).slice (Rect.unit (s := S8192x1024) (k0_off1 L o) S32x1024.size h) (fun _ => rfl)
abbrev sB0 : Memref sig .scVector .vmem S32x1024 .f32 :=
  ((sW).slice (Rect.unit (s := S3x32x1024) ![0, 0, 0] S1x32x1024.size inb_S3x32x1024_S1x32x1024_0_0_0) (fun _ => rfl)).squeeze S32x1024 squeezes_S1x32x1024_S32x1024
abbrev sB1 : Memref sig .scVector .vmem S32x1024 .f32 :=
  ((sW).slice (Rect.unit (s := S3x32x1024) ![1, 0, 0] S1x32x1024.size inb_S3x32x1024_S1x32x1024_1_0_0) (fun _ => rfl)).squeeze S32x1024 squeezes_S1x32x1024_S32x1024
abbrev sB2 : Memref sig .scVector .vmem S32x1024 .f32 :=
  ((sW).slice (Rect.unit (s := S3x32x1024) ![2, 0, 0] S1x32x1024.size inb_S3x32x1024_S1x32x1024_2_0_0) (fun _ => rfl)).squeeze S32x1024 squeezes_S1x32x1024_S32x1024

/-! ## The chunks and slots as element sets -/

omit [FloatOps F] in
theorem unit_congr {s : Shape} {off off' size size' : Fin s.rank → ℕ} (inb : ∀ a, off a + size a ≤ s.size a) (inb' : ∀ a, off' a + size' a ≤ s.size a)
    (h1 : off = off') (h2 : size = size') : Rect.unit off size inb = Rect.unit off' size' inb' := by
  subst h1; subst h2; rfl

omit [FloatOps F] in
/-- Chunk `g` as the body addresses it — at row 512·i + 256·c + 32·g — is chunk (2·i + c)·8 + g of the 256. -/
theorem rect_eq (g : Fin 8) (h : ∀ a, k0_off1 L (BitVec.ofNat 32 (32 * g.val)) a + S32x1024.size a ≤ S8192x1024.size a) :
    Rect.unit (s := S8192x1024) (k0_off1 L (BitVec.ofNat 32 (32 * g.val))) S32x1024.size h = crect (cL L) (iL L) g := by
  unfold crect Rect.part Rect.block
  refine unit_congr _ _ ?_ ?_
  · rw [k0_off1_eq]
    funext a
    match a with
    | 0 => simp [Shape.partIx, Shape.partSize, nOf]; omega
    | 1 => simp [Shape.partIx, Shape.partSize]
  · funext a
    match a with
    | 0 => simp [Shape.partSize]
    | 1 => simp [Shape.partSize]

omit [FloatOps F] in
theorem set_xC (g : Fin 8) (o : BitVec 32) (ho : o = BitVec.ofNat 32 (32 * g.val)) (h : ∀ a, k0_off1 L o a + S32x1024.size a ≤ S8192x1024.size a) :
    (xC L o h).view.set = cset (cL L) (iL L) g := by
  subst ho
  show ((View.whole (main_arg1_scv : Ref sig .scVector)).slice (Rect.unit (s := S8192x1024) (k0_off1 L _) S32x1024.size h)).set = (crect (cL L) (iL L) g).set
  rw [View.set_slice_whole, rect_eq]
omit [FloatOps F] in
theorem set_oC (g : Fin 8) (o : BitVec 32) (ho : o = BitVec.ofNat 32 (32 * g.val)) (h : ∀ a, k0_off1 L o a + S32x1024.size a ≤ S8192x1024.size a) :
    (oC L o h).view.set = cset (cL L) (iL L) g := by
  subst ho
  show ((View.whole (main_v0_scv : Ref sig .scVector)).slice (Rect.unit (s := S8192x1024) (k0_off1 L _) S32x1024.size h)).set = (crect (cL L) (iL L) g).set
  rw [View.set_slice_whole, rect_eq]

omit [FloatOps F] in
theorem pts_x (g : Fin 8) (o : BitVec 32) (ho : o = BitVec.ofNat 32 (32 * g.val)) (h : ∀ a, k0_off1 L o a + S32x1024.size a ≤ S8192x1024.size a) (f : Buf (Elt F) (xLoc d)) :
    ((xC L o h).view.loc (thr d L) ↦[(xC L o h).view.set]{fullShare} f : sProp 𝕄) = xLoc d ↦[cset (cL L) (iL L) g]{fullShare} f := by
  rw [set_xC L g o ho h]
omit [FloatOps F] in
theorem pts_o (g : Fin 8) (o : BitVec 32) (ho : o = BitVec.ofNat 32 (32 * g.val)) (h : ∀ a, k0_off1 L o a + S32x1024.size a ≤ S8192x1024.size a) (f : Buf (Elt F) (oLoc d)) :
    ((oC L o h).view.loc (thr d L) ↦[(oC L o h).view.set]{fullShare} f : sProp 𝕄) = oLoc d ↦[cset (cL L) (iL L) g]{fullShare} f := by
  rw [set_oC L g o ho h]

omit [FloatOps F] in
theorem hdiv3 : 3 ∣ S3x32x1024.size 0 := ⟨1, rfl⟩
/-- A slot's elements. -/
def slot (b : Fin 3) : Finset S3x32x1024.Idx := (Rect.part (s := S3x32x1024) (a₀ := 0) hdiv3 b).set

omit [FloatOps F] in
theorem slotRect_eq (b : Fin 3) (h : ∀ a, (![b.val, 0, 0] : Fin 3 → ℕ) a + S1x32x1024.size a ≤ S3x32x1024.size a) :
    Rect.unit (s := S3x32x1024) ![b.val, 0, 0] S1x32x1024.size h = Rect.part (s := S3x32x1024) (a₀ := 0) hdiv3 b := by
  unfold Rect.part Rect.block
  refine unit_congr _ _ ?_ ?_
  · funext a
    match a with
    | 0 => simp [Shape.partIx, Shape.partSize]
    | 1 => simp [Shape.partIx, Shape.partSize]
    | 2 => simp [Shape.partIx, Shape.partSize]
  · funext a
    match a with
    | 0 => simp [Shape.partSize]
    | 1 => simp [Shape.partSize]
    | 2 => simp [Shape.partSize]

omit [FloatOps F] in
theorem set_sB0 : (sB0).view.set = slot 0 := by
  show (((View.whole (cc0_scratch0 : Ref sig .scVector)).slice (Rect.unit (s := S3x32x1024) ![0, 0, 0] S1x32x1024.size inb_S3x32x1024_S1x32x1024_0_0_0)).reshape S32x1024 squeezes_S1x32x1024_S32x1024.numel_eq).set = _
  rw [View.set_reshape, View.set_slice_whole]
  exact congrArg (fun r : Rect S3x32x1024 => r.set) (slotRect_eq 0 _)
omit [FloatOps F] in
theorem set_sB1 : (sB1).view.set = slot 1 := by
  show (((View.whole (cc0_scratch0 : Ref sig .scVector)).slice (Rect.unit (s := S3x32x1024) ![1, 0, 0] S1x32x1024.size inb_S3x32x1024_S1x32x1024_1_0_0)).reshape S32x1024 squeezes_S1x32x1024_S32x1024.numel_eq).set = _
  rw [View.set_reshape, View.set_slice_whole]
  exact congrArg (fun r : Rect S3x32x1024 => r.set) (slotRect_eq 1 _)
omit [FloatOps F] in
theorem set_sB2 : (sB2).view.set = slot 2 := by
  show (((View.whole (cc0_scratch0 : Ref sig .scVector)).slice (Rect.unit (s := S3x32x1024) ![2, 0, 0] S1x32x1024.size inb_S3x32x1024_S1x32x1024_2_0_0)).reshape S32x1024 squeezes_S1x32x1024_S32x1024.numel_eq).set = _
  rw [View.set_reshape, View.set_slice_whole]
  exact congrArg (fun r : Rect S3x32x1024 => r.set) (slotRect_eq 2 _)

omit [FloatOps F] in
theorem slots_disjoint : ∀ b ∈ (Finset.univ : Finset (Fin 3)), ∀ b' ∈ (Finset.univ : Finset (Fin 3)), b ≠ b' → Disjoint (slot b) (slot b') :=
  fun _ _ _ _ h => Rect.part_disjoint hdiv3 h
omit [FloatOps F] in
theorem slots_cover : (Finset.univ : Finset (Fin 3)).biUnion slot = Finset.univ := Rect.biUnion_part hdiv3

omit [FloatOps F] in
theorem fin3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

omit [FloatOps F] in
/-- The scratch held whole is its three slots held one by one. -/
theorem scratch_slots (f : Buf (Elt F) (sLoc d L)) :
    (sLoc d L ↦{fullShare} f : sProp 𝕄) = iprop((sLoc d L ↦[slot 0]{fullShare} f) ∗ (sLoc d L ↦[slot 1]{fullShare} f) ∗ sLoc d L ↦[slot 2]{fullShare} f) := by
  rw [← fin3 (F := F) (fun b => sLoc d L ↦[slot b]{fullShare} f), ← pointsTo_biUnion Finset.univ (ℓ := sLoc d L) slot slots_disjoint, slots_cover]; try rfl

omit [FloatOps F] in
theorem slots_union : slot 0 ∪ (slot 1 ∪ slot 2) = Finset.univ := by
  have h := slots_cover
  rw [show (Finset.univ : Finset (Fin 3)) = {0, 1, 2} by decide, Finset.biUnion_insert, Finset.biUnion_insert, Finset.singleton_biUnion] at h
  exact h

omit [FloatOps F] in
/-- Three slots held at whatever contents are the scratch held whole at some contents. -/
theorem scratch_join (f0 f1 f2 : Buf (Elt F) (sLoc d L)) :
    iprop((sLoc d L ↦[slot 0]{fullShare} f0) ∗ (sLoc d L ↦[slot 1]{fullShare} f1) ∗ sLoc d L ↦[slot 2]{fullShare} f2)
      ⊢ (iprop(∃ f, sLoc d L ↦{fullShare} f) : sProp 𝕄) := by
  have h12 : Disjoint (slot 1) (slot 2) := slots_disjoint 1 (Finset.mem_univ _) 2 (Finset.mem_univ _) (by decide)
  have h0 : Disjoint (slot 0) (slot 1 ∪ slot 2) :=
    Finset.disjoint_union_right.mpr ⟨slots_disjoint 0 (Finset.mem_univ _) 1 (Finset.mem_univ _) (by decide), slots_disjoint 0 (Finset.mem_univ _) 2 (Finset.mem_univ _) (by decide)⟩
  iintro ⟨H0, H1, H2⟩
  ihave H12 := (pointsTo_join (ℓ := sLoc d L) (f := f1) (g := f2) h12) $$ [H1 H2]
  · isplitl [H1] <;> iassumption
  ihave H := (pointsTo_join (ℓ := sLoc d L) (f := f0) h0) $$ [H0 H12]
  · isplitl [H0] <;> iassumption
  rw [slots_union]
  iexists _; iexact H

omit [FloatOps F] in
theorem pts_s0 (f : Buf (Elt F) (sLoc d L)) : ((sB0).view.loc (thr d L) ↦[(sB0).view.set]{fullShare} f : sProp 𝕄) = sLoc d L ↦[slot 0]{fullShare} f := by rw [set_sB0]
omit [FloatOps F] in
theorem pts_s1 (f : Buf (Elt F) (sLoc d L)) : ((sB1).view.loc (thr d L) ↦[(sB1).view.set]{fullShare} f : sProp 𝕄) = sLoc d L ↦[slot 1]{fullShare} f := by rw [set_sB1]
omit [FloatOps F] in
theorem pts_s2 (f : Buf (Elt F) (sLoc d L)) : ((sB2).view.loc (thr d L) ↦[(sB2).view.set]{fullShare} f : sProp 𝕄) = sLoc d L ↦[slot 2]{fullShare} f := by rw [set_sB2]

/-! ## The subcore's own semaphores and buffer -/

abbrev cell1 (d : Dev nD) (L : grid0.Coords) : GSem nD τ sig := (thr d L, .dma cc0_scratch1.sem)
abbrev cell2 (d : Dev nD) (L : grid0.Coords) : GSem nD τ sig := (thr d L, .dma cc0_scratch2.sem)
abbrev cell3 (d : Dev nD) (L : grid0.Coords) : GSem nD τ sig := (thr d L, .dma cc0_scratch3.sem)
abbrev cell4 (d : Dev nD) (L : grid0.Coords) : GSem nD τ sig := (thr d L, .dma cc0_scratch4.sem)
abbrev cell5 (d : Dev nD) (L : grid0.Coords) : GSem nD τ sig := (thr d L, .dma cc0_scratch5.sem)
abbrev cell6 (d : Dev nD) (L : grid0.Coords) : GSem nD τ sig := (thr d L, .dma cc0_scratch6.sem)

omit [FloatOps F] in
theorem cell_ne {s s' : DmaSem sig} (h : s ≠ s') : ((thr d L, SemLoc.dma s) : GSem nD τ sig) ≠ (thr d L, SemLoc.dma s') :=
  fun e => h (SemLoc.dma.inj (Prod.mk.inj e).2)
omit [FloatOps F] in
theorem cell_mem (s : DmaSem sig) (h : (SemLoc.dma s : SemLoc sig).isScoped .scVector = true) : ((thr d L, SemLoc.dma s) : GSem nD τ sig) ∈ ownCells (thr d L) :=
  (mem_ownCells (g := (thr d L, SemLoc.dma s))).mpr ⟨rfl, h⟩

omit [FloatOps F] in
theorem ownSems0_V :
    (ownSems0 (thr d L) : sProp 𝕄)
      = iprop(semVal (cell1 d L) 0 ∗ semVal (cell2 d L) 0 ∗ semVal (cell3 d L) 0 ∗ semVal (cell4 d L) 0 ∗ semVal (cell5 d L) 0 ∗ semVal (cell6 d L) 0
          ∗ bigSep ((((((((ownCells (thr d L)).erase (cell1 d L)).erase (cell2 d L)).erase (cell3 d L)).erase (cell4 d L)).erase (cell5 d L)).erase (cell6 d L)))
              fun g => semVal g 0) := by
  unfold SparseCore.Cfg.ownSems0
  have m1 := cell_mem d L cc0_scratch1.sem (by decide)
  have m2 := cell_mem d L cc0_scratch2.sem (by decide)
  have m3 := cell_mem d L cc0_scratch3.sem (by decide)
  have m4 := cell_mem d L cc0_scratch4.sem (by decide)
  have m5 := cell_mem d L cc0_scratch5.sem (by decide)
  have m6 := cell_mem d L cc0_scratch6.sem (by decide)
  have n21 : cell2 d L ≠ cell1 d L := cell_ne d L (by decide)
  have n31 : cell3 d L ≠ cell1 d L := cell_ne d L (by decide)
  have n32 : cell3 d L ≠ cell2 d L := cell_ne d L (by decide)
  have n41 : cell4 d L ≠ cell1 d L := cell_ne d L (by decide)
  have n42 : cell4 d L ≠ cell2 d L := cell_ne d L (by decide)
  have n43 : cell4 d L ≠ cell3 d L := cell_ne d L (by decide)
  have n51 : cell5 d L ≠ cell1 d L := cell_ne d L (by decide)
  have n52 : cell5 d L ≠ cell2 d L := cell_ne d L (by decide)
  have n53 : cell5 d L ≠ cell3 d L := cell_ne d L (by decide)
  have n54 : cell5 d L ≠ cell4 d L := cell_ne d L (by decide)
  have n61 : cell6 d L ≠ cell1 d L := cell_ne d L (by decide)
  have n62 : cell6 d L ≠ cell2 d L := cell_ne d L (by decide)
  have n63 : cell6 d L ≠ cell3 d L := cell_ne d L (by decide)
  have n64 : cell6 d L ≠ cell4 d L := cell_ne d L (by decide)
  have n65 : cell6 d L ≠ cell5 d L := cell_ne d L (by decide)
  rw [SparseCore.bigSep_erase' m1,
    SparseCore.bigSep_erase' (Finset.mem_erase.mpr ⟨n21, m2⟩),
    SparseCore.bigSep_erase' (Finset.mem_erase.mpr ⟨n32, Finset.mem_erase.mpr ⟨n31, m3⟩⟩),
    SparseCore.bigSep_erase' (Finset.mem_erase.mpr ⟨n43, Finset.mem_erase.mpr ⟨n42, Finset.mem_erase.mpr ⟨n41, m4⟩⟩⟩),
    SparseCore.bigSep_erase' (Finset.mem_erase.mpr ⟨n54, Finset.mem_erase.mpr ⟨n53, Finset.mem_erase.mpr ⟨n52, Finset.mem_erase.mpr ⟨n51, m5⟩⟩⟩⟩),
    SparseCore.bigSep_erase' (Finset.mem_erase.mpr ⟨n65, Finset.mem_erase.mpr ⟨n64, Finset.mem_erase.mpr ⟨n63, Finset.mem_erase.mpr ⟨n62, Finset.mem_erase.mpr ⟨n61, m6⟩⟩⟩⟩⟩)]

omit [FloatOps F] in
/-- The scratch is among the subcore's own buffers: it is that, at some contents, and the rest. -/
theorem ownBufs_V :
    (ownBufs (thr d L) : sProp 𝕄)
      = iprop((∃ f, sLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## What a chunk of the result holds after its write-out -/

omit [FloatOps F] in
/-- Read through a chunk, the table's contents taken as contents of the result are the table's chunk. -/
theorem read_tab (o : BitVec 32) (h : ∀ a, k0_off1 L o a + S32x1024.size a ≤ S8192x1024.size a) :
    (oC L o h).view.read (Elt F) (tab m d) = (xC L o h).view.read (Elt F) (m (xLoc d)) := rfl

omit [FloatOps F] in
/-- A chunk of the result last written whole with the table's chunk is, on its own elements, the table. -/
theorem out_val (g : Fin 8) (o : BitVec 32) (ho : o = BitVec.ofNat 32 (32 * g.val)) (h : ∀ a, k0_off1 L o a + S32x1024.size a ≤ S8192x1024.size a)
    (f : Buf (Elt F) (oLoc d)) (p : S32x1024.Idx → Elt F .f32) (Ls : List (View.Piece (Elt F) S32x1024 .f32))
    (hp : p = (xC L o h).view.read (Elt F) (m (xLoc d))) :
    ((oC L o h).view.loc (thr d L) ↦[(oC L o h).view.set]{fullShare} (oC L o h).view.writes (Elt F) f (⟨Rect.whole S32x1024, p⟩ :: Ls) : sProp 𝕄)
      = oLoc d ↦[cset (cL L) (iL L) g]{fullShare} tab m d := by
  have hr : (oC L o h).view.read (Elt F) ((oC L o h).view.writes (Elt F) f (⟨Rect.whole S32x1024, p⟩ :: Ls)) = (oC L o h).view.read (Elt F) (tab m d) := by
    rw [read_writes_whole_cons, hp]; rfl
  rw [pointsTo_congr (eq_on_set_of_read_eq (oC L o h).view _ (tab m d) hr)]
  exact pts_o d L g o ho h _

omit [FloatOps F] in
theorem insert_ok {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

end Tile

end Cert.Proof.KI

end
-- ==== Proof.KITile.lean ====
/-
  One task of the copy kernel, run.  Vector subcore i of SparseCore c moves its eight chunks of 32 rows
  from the table to the same rows of the result, each through one of three slots of its scratch: chunk g
  is fetched into slot g mod 3 and written out from it, the fetch of chunk g + 3 issued only after the
  write-out of chunk g has been waited for, so that no slot is written while it is still being read, and
  no two copies are ever in flight on one semaphore.  Each copy carries its source's rows as they stand:
  a slot after its fetch holds the chunk's rows of the table, whatever it held before, and the result's
  chunk after its write-out holds those rows.  So the task hands back the table's chunks unchanged and
  the result's chunks holding the table's rows, its scratch and semaphores as it found them.
-/
import proofs.«202655_g3478923510319_cont_8to1_b_1543_18_alg».proof.Proof.KITileGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWholeView

variable {F : FTy → Type}

local notation "𝕄" => MT nD τ sig (HIx 1) (Elt F) ℕ UU ℕ

variable (m : (ℓ : Loc nD τ sig) → Buf (Elt F) ℓ)

-- the kernel's memrefs, spelt as the body table passes them
local notation "xW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S8192x1024 EltTy.f32)
local notation "sW" => (Memref.whole Cert.KernelIdeal.cc0_scratch0 : Memref Cert.KernelIdeal.sig Kind.scVector Space.vmem Cert.KernelIdeal.S3x32x1024 EltTy.f32)

variable [FloatOps F]

section Tile

variable (d : Dev nD) (L : grid0.Coords)

/-- The task on vector subcore `(L 0, L 1)` of device `d`: eight fetches, eight write-outs and their sixteen waits. -/
theorem tile_body (hF : (K (F := F)).Facts) (O : CellTallies nD τ sig (HIx 1)) (W : Waits sig (HIx 1)) (hO : ∀ g, O g none = 0) :
    iprop(levAts (K (F := F)).L (K (F := F)).lev ∗ emp ∗ GOf m d (cL L) (iL L)
        ∗ scopedBufs (thr d L) ∗ scopedSems0 (thr d L) ∗ owes (thr d L) O W)
      ⊢ wp frame (wpE (defs₀ (F := F)) 𝒱₀ (thr d L) none) Set.univ
          (cc0_body L xW (Memref.isWhole_whole _) oW (Memref.isWhole_whole _) sW (Memref.isWhole_whole _)
            cc0_scratch1 cc0_scratch2 cc0_scratch3 cc0_scratch4 cc0_scratch5 cc0_scratch6)
          fun _ => iprop(TDf m d (cL L) (iL L) ∗ scopedBufs (thr d L) ∗ scopedSems0 (thr d L)
            ∗ ∃ W', ⌜∀ p ∈ W', p ∈ W ∨ p.2 = none⌝ ∗ owes (thr d L) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold GOf TDf XS OS
  simp only [fin8]
  iintro ⟨#Hlv, -, ⟨⟨Hx0, Hx1, Hx2, Hx3, Hx4, Hx5, Hx6, Hx7⟩, ⟨Ho0, Ho1, Ho2, Ho3, Ho4, Ho5, Ho6, Ho7⟩⟩, ⟨⟨%fs, Hs⟩, Hbufs⟩, ⟨H1, H2, H3, H4, H5, H6, Hsems⟩, HO⟩
  ihave Hs' := (Entails.of_eq (scratch_slots (F := F) d L fs)) $$ Hs
  icases Hs' with ⟨Hs0, Hs1, Hs2⟩
  ihave Hmw := ((K (F := F)).mayWaits_none (thr := thr d L) hO) $$ Hlv
  ihave Hx0' := (Entails.of_eq (pts_x (F := F) d L 0 0#32 rfl (k0_off1_inb L 0) _).symm) $$ Hx0
  ihave Hx1' := (Entails.of_eq (pts_x (F := F) d L 1 32#32 rfl (k0_off1_inb L 1) _).symm) $$ Hx1
  ihave Hx2' := (Entails.of_eq (pts_x (F := F) d L 2 64#32 rfl (k0_off1_inb L 2) _).symm) $$ Hx2
  ihave Hx3' := (Entails.of_eq (pts_x (F := F) d L 3 96#32 rfl (k0_off1_inb L 3) _).symm) $$ Hx3
  ihave Hx4' := (Entails.of_eq (pts_x (F := F) d L 4 128#32 rfl (k0_off1_inb L 4) _).symm) $$ Hx4
  ihave Hx5' := (Entails.of_eq (pts_x (F := F) d L 5 160#32 rfl (k0_off1_inb L 5) _).symm) $$ Hx5
  ihave Hx6' := (Entails.of_eq (pts_x (F := F) d L 6 192#32 rfl (k0_off1_inb L 6) _).symm) $$ Hx6
  ihave Hx7' := (Entails.of_eq (pts_x (F := F) d L 7 224#32 rfl (k0_off1_inb L 7) _).symm) $$ Hx7
  ihave Ho0' := (Entails.of_eq (pts_o (F := F) d L 0 0#32 rfl (k0_off1_inb L 0) _).symm) $$ Ho0
  ihave Ho1' := (Entails.of_eq (pts_o (F := F) d L 1 32#32 rfl (k0_off1_inb L 1) _).symm) $$ Ho1
  ihave Ho2' := (Entails.of_eq (pts_o (F := F) d L 2 64#32 rfl (k0_off1_inb L 2) _).symm) $$ Ho2
  ihave Ho3' := (Entails.of_eq (pts_o (F := F) d L 3 96#32 rfl (k0_off1_inb L 3) _).symm) $$ Ho3
  ihave Ho4' := (Entails.of_eq (pts_o (F := F) d L 4 128#32 rfl (k0_off1_inb L 4) _).symm) $$ Ho4
  ihave Ho5' := (Entails.of_eq (pts_o (F := F) d L 5 160#32 rfl (k0_off1_inb L 5) _).symm) $$ Ho5
  ihave Ho6' := (Entails.of_eq (pts_o (F := F) d L 6 192#32 rfl (k0_off1_inb L 6) _).symm) $$ Ho6
  ihave Ho7' := (Entails.of_eq (pts_o (F := F) d L 7 224#32 rfl (k0_off1_inb L 7) _).symm) $$ Ho7
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_exec
  sl_step
  -- what each write-out carried: the slot's last fetch, the table's chunk
  have hp0 : tile_body.sl.dma0_3 m d L fs = (xC L 0#32 (k0_off1_inb L 0)).view.read (Elt F) (m (xLoc d)) := by
    unfold tile_body.sl.dma0_3
    exact (read_writes_whole_cons _ _ _ _).trans rfl
  have hp1 : tile_body.sl.dma0_5 m d L fs = (xC L 32#32 (k0_off1_inb L 1)).view.read (Elt F) (m (xLoc d)) := by
    unfold tile_body.sl.dma0_5
    exact (read_writes_whole_cons _ _ _ _).trans rfl
  have hp2 : tile_body.sl.dma0_7 m d L fs = (xC L 64#32 (k0_off1_inb L 2)).view.read (Elt F) (m (xLoc d)) := by
    unfold tile_body.sl.dma0_7
    exact (read_writes_whole_cons _ _ _ _).trans rfl
  have hp3 : tile_body.sl.dma0_9 m d L fs = (xC L 96#32 (k0_off1_inb L 3)).view.read (Elt F) (m (xLoc d)) := by
    unfold tile_body.sl.dma0_9
    exact (read_writes_whole_cons _ _ _ _).trans rfl
  have hp4 : tile_body.sl.dma0_11 m d L fs = (xC L 128#32 (k0_off1_inb L 4)).view.read (Elt F) (m (xLoc d)) := by
    unfold tile_body.sl.dma0_11
    exact (read_writes_whole_cons _ _ _ _).trans rfl
  have hp5 : tile_body.sl.dma0_13 m d L fs = (xC L 160#32 (k0_off1_inb L 5)).view.read (Elt F) (m (xLoc d)) := by
    unfold tile_body.sl.dma0_13
    exact (read_writes_whole_cons _ _ _ _).trans rfl
  have hp6 : tile_body.sl.dma0_14 m d L fs = (xC L 192#32 (k0_off1_inb L 6)).view.read (Elt F) (m (xLoc d)) := by
    unfold tile_body.sl.dma0_14
    exact (read_writes_whole_cons _ _ _ _).trans rfl
  have hp7 : tile_body.sl.dma0_15 m d L fs = (xC L 224#32 (k0_off1_inb L 7)).view.read (Elt F) (m (xLoc d)) := by
    unfold tile_body.sl.dma0_15
    exact (read_writes_whole_cons _ _ _ _).trans rfl
  isplitl [Hx0' Hx1' Hx2' Hx3' Hx4' Hx5' Hx6' Hx7' Ho0' Ho1' Ho2' Ho3' Ho4' Ho5' Ho6' Ho7']
  · isplitl [Hx0' Hx1' Hx2' Hx3' Hx4' Hx5' Hx6' Hx7']
    ·
      isplitl [Hx0']; · iapply (Entails.of_eq (pts_x (F := F) d L 0 0#32 rfl (k0_off1_inb L 0) _)); iexact Hx0'
      isplitl [Hx1']; · iapply (Entails.of_eq (pts_x (F := F) d L 1 32#32 rfl (k0_off1_inb L 1) _)); iexact Hx1'
      isplitl [Hx2']; · iapply (Entails.of_eq (pts_x (F := F) d L 2 64#32 rfl (k0_off1_inb L 2) _)); iexact Hx2'
      isplitl [Hx3']; · iapply (Entails.of_eq (pts_x (F := F) d L 3 96#32 rfl (k0_off1_inb L 3) _)); iexact Hx3'
      isplitl [Hx4']; · iapply (Entails.of_eq (pts_x (F := F) d L 4 128#32 rfl (k0_off1_inb L 4) _)); iexact Hx4'
      isplitl [Hx5']; · iapply (Entails.of_eq (pts_x (F := F) d L 5 160#32 rfl (k0_off1_inb L 5) _)); iexact Hx5'
      isplitl [Hx6']; · iapply (Entails.of_eq (pts_x (F := F) d L 6 192#32 rfl (k0_off1_inb L 6) _)); iexact Hx6'
      iapply (Entails.of_eq (pts_x (F := F) d L 7 224#32 rfl (k0_off1_inb L 7) _)); iexact Hx7'
    ·
      isplitl [Ho0']; · iapply (Entails.of_eq (out_val (F := F) m d L 0 0#32 rfl (k0_off1_inb L 0) _ _ _ hp0)); iexact Ho0'
      isplitl [Ho1']; · iapply (Entails.of_eq (out_val (F := F) m d L 1 32#32 rfl (k0_off1_inb L 1) _ _ _ hp1)); iexact Ho1'
      isplitl [Ho2']; · iapply (Entails.of_eq (out_val (F := F) m d L 2 64#32 rfl (k0_off1_inb L 2) _ _ _ hp2)); iexact Ho2'
      isplitl [Ho3']; · iapply (Entails.of_eq (out_val (F := F) m d L 3 96#32 rfl (k0_off1_inb L 3) _ _ _ hp3)); iexact Ho3'
      isplitl [Ho4']; · iapply (Entails.of_eq (out_val (F := F) m d L 4 128#32 rfl (k0_off1_inb L 4) _ _ _ hp4)); iexact Ho4'
      isplitl [Ho5']; · iapply (Entails.of_eq (out_val (F := F) m d L 5 160#32 rfl (k0_off1_inb L 5) _ _ _ hp5)); iexact Ho5'
      isplitl [Ho6']; · iapply (Entails.of_eq (out_val (F := F) m d L 6 192#32 rfl (k0_off1_inb L 6) _ _ _ hp6)); iexact Ho6'
      iapply (Entails.of_eq (out_val (F := F) m d L 7 224#32 rfl (k0_off1_inb L 7) _ _ _ hp7)); iexact Ho7'
  isplitl [Hs0' Hs1' Hs2' Hbufs]
  · isplitl [Hs0' Hs1' Hs2']
    · iapply (scratch_join (F := F) d L _ _ _)
      isplitl [Hs0']; · iapply (Entails.of_eq (pts_s0 (F := F) d L _)); iexact Hs0'
      isplitl [Hs1']; · iapply (Entails.of_eq (pts_s1 (F := F) d L _)); iexact Hs1'
      iapply (Entails.of_eq (pts_s2 (F := F) d L _)); iexact Hs2'
    · iexact Hbufs
  isplitl [H1 H2 H3 H4 H5 H6 Hsems]
  · isplitl [H1]; · iexact H1
    isplitl [H2]; · iexact H2
    isplitl [H3]; · iexact H3
    isplitl [H4]; · iexact H4
    isplitl [H5]; · iexact H5
    isplitl [H6]; · iexact H6
    iexact Hsems
  iexists _; isplitr
  rotate_left
  · iexact HO
  · ipureintro
    repeat' apply insert_ok
    exact fun p hp => .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          xW (Memref.isWhole_whole _) oW (Memref.isWhole_whole _) sW (Memref.isWhole_whole _)
          cc0_scratch1 cc0_scratch2 cc0_scratch3 cc0_scratch4 cc0_scratch5 cc0_scratch6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the one call, as the launch states it. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KI

end
-- ==== Proof.KILaunch.lean ====
/-
  The launch of the copy kernel: how the table and the result, whole in the TensorCore's hands, are dealt
  to the two SparseCores and their sixteen vector subcores chunk by chunk and gathered again, and the
  run of the whole family of threads from a proof of one task.  The 256 chunks are pairwise disjoint and
  cover each array, so an array held whole is its chunks held one by one; when every task has handed its
  chunks back — the table's unchanged, the result's holding the table's rows — the result array as a whole
  holds the table.
-/
import proofs.«202655_g3478923510319_cont_8to1_b_1543_18_alg».proof.Proof.KISetup
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## An array whole is its chunks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem xPts_chunks (d : Dev nD) (f : Buf (Elt F) (xLoc d)) :
    (xLoc d ↦{fullShare} f : sProp 𝕄) = bigSep Finset.univ fun c : Fin 2 => bigSep Finset.univ fun i : Fin 16 => XS d c i f := by
  have h : (xLoc d ↦{fullShare} f : sProp 𝕄) = bigSep Finset.univ fun t : Fin 2 × Fin 16 × Fin 8 => xLoc d ↦[cset t.1 t.2.1 t.2.2]{fullShare} f := by
    rw [← pointsTo_biUnion Finset.univ (ℓ := xLoc d) (fun t : Fin 2 × Fin 16 × Fin 8 => cset t.1 t.2.1 t.2.2) csets_disjoint, csets_cover]; try rfl
  rw [h, bigSep_univ_prod]
  refine bigSep_congr fun c _ => ?_
  rw [bigSep_univ_prod]
  rfl
theorem oPts_chunks (d : Dev nD) (f : Buf (Elt F) (oLoc d)) :
    (oLoc d ↦{fullShare} f : sProp 𝕄) = bigSep Finset.univ fun c : Fin 2 => bigSep Finset.univ fun i : Fin 16 => OS d c i f := by
  have h : (oLoc d ↦{fullShare} f : sProp 𝕄) = bigSep Finset.univ fun t : Fin 2 × Fin 16 × Fin 8 => oLoc d ↦[cset t.1 t.2.1 t.2.2]{fullShare} f := by
    rw [← pointsTo_biUnion Finset.univ (ℓ := oLoc d) (fun t : Fin 2 × Fin 16 × Fin 8 => cset t.1 t.2.1 t.2.2) csets_disjoint, csets_cover]; try rfl
  rw [h, bigSep_univ_prod]
  refine bigSep_congr fun c _ => ?_
  rw [bigSep_univ_prod]
  rfl

/-- What the call takes for the two SparseCores, and what it hands back. -/
theorem st0_eq (d : Dev nD) :
    (bigSep Finset.univ fun c : Fin ((K (F := F)).nCore 0) => (P m).st 0 d c) = iprop((xLoc d ↦{fullShare} m (xLoc d)) ∗ oLoc d ↦{fullShare} m (oLoc d)) := by
  show (bigSep Finset.univ fun c : Fin ((K (F := F)).nCore 0) => bigSep Finset.univ fun i : Fin 16 => GOf m d (Fin.cast nCore_zero c) i) = _
  rw [bigSep_cores (F := F) (fun c => bigSep Finset.univ fun i : Fin 16 => GOf m d c i), xPts_chunks, oPts_chunks, ← bigSep_sep']
  refine bigSep_congr fun c _ => ?_
  rw [← bigSep_sep']
  rfl
theorem dn0_eq (d : Dev nD) :
    (bigSep Finset.univ fun c : Fin ((K (F := F)).nCore 0) => (P m).dn 0 d c) = iprop((xLoc d ↦{fullShare} m (xLoc d)) ∗ oLoc d ↦{fullShare} tab m d) := by
  show (bigSep Finset.univ fun c : Fin ((K (F := F)).nCore 0) => bigSep Finset.univ fun i : Fin 16 => TDf m d (Fin.cast nCore_zero c) i) = _
  rw [bigSep_cores (F := F) (fun c => bigSep Finset.univ fun i : Fin 16 => TDf m d c i), xPts_chunks, oPts_chunks, ← bigSep_sep']
  refine bigSep_congr fun c _ => ?_
  rw [← bigSep_sep']
  rfl

/-- A SparseCore's chunks are its tasks' chunks, both ways. -/
theorem vecSplit : (K (F := F)).VecSplit' (P m) 0 := by
  intro d c
  show (bigSep Finset.univ fun i : Fin 16 => GOf m d (Fin.cast nCore_zero c) i) ⊢ |={Set.univ}=> iprop(
      (bigSep Finset.univ fun i : Fin ((K (F := F)).nSub 0) => GOf m d (Fin.cast nCore_zero c) (Fin.cast nSub_zero i))
      ∗ ((bigSep Finset.univ fun i : Fin ((K (F := F)).nSub 0) => TDf m d (Fin.cast nCore_zero c) (Fin.cast nSub_zero i))
          -∗ bigSep Finset.univ fun i : Fin 16 => TDf m d (Fin.cast nCore_zero c) i))
  rw [bigSep_tasks (F := F) (fun i => GOf m d (Fin.cast nCore_zero c) i), bigSep_tasks (F := F) (fun i => TDf m d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable [FloatOps F]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves the claim: the two arguments at their launch contents, the result holding the table. -/
abbrev FIN (d : Dev nD) : sProp 𝕄 := iprop((aLoc d ↦{fullShare} m (aLoc d)) ∗ (xLoc d ↦{fullShare} m (xLoc d)) ∗ oLoc d ↦{fullShare} tab m d)

/-- @main on device `d`'s TensorCore: the one call, from the table and the result; the first argument kept aside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, Ho⟩, -, -⟩, -⟩
  iapply ((K (F := F)).wp_run (D (F := F)) 𝒱 (EH := EH) (P := P m) κ d 0) $$ [Hst Hx Ho Ha]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Ha]; · iexact Ha
  isplitl [Hx]; · iexact Hx
  iexact Ho

def fq (d : Dev nD) (s' : Phys nD τ sig (Elt F)) : Prop :=
  s'.mem.mem (oLoc d) = tab m d ∧ s'.mem.mem (aLoc d) = m (aLoc d) ∧ s'.mem.mem (xLoc d) = m (xLoc d)

omit [FloatOps F] in
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := tab m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with the result holding the table and both arguments as they were. -/
def QC : PUnit × MemSt nD τ sig (Elt F) → Prop := fun r =>
  ∀ c : Dev nD, r.2.mem (oLoc c) = tab m c ∧ r.2.mem (aLoc c) = m (aLoc c) ∧ r.2.mem (xLoc c) = m (xLoc c)

/-- From a proof of one task, every weakly fair execution of the whole family of threads terminates,
    nothing faulting, in such a memory. -/
theorem run_of_tile [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBSetup.lean ====
/-
  The copy kernel on the SparseCores, read as a family of threads: the vocabulary of its frame.
  The table f32[8192,1024] is cut along its rows into 256 chunks of 32 rows.  Vector subcore i of
  SparseCore c owns the eight chunks (2·i + c)·8 + g, g < 8: it moves each through one of three slots of
  its own scratch into the same rows of the result.  Here: the chunks as element sets of the two arrays
  (pairwise disjoint, covering the array), the slots as element sets of the scratch, and what the launch's
  handshakes carry — to a task its sixteen chunks, back from it the table's chunks unchanged and the
  result's chunks holding the table's rows.
-/
import proofs.«202655_g3478923510319_cont_8to1_b_1543_18_alg».proof.Defs
import Idealize.ShloMosaic.Lib.SparseCore.Launch
import Idealize.ShloMosaic.Lib.Pipeline.Kit
import Idealize.ShloMosaic.Lib.Tactic
import proofs.«202655_g3478923510319_cont_8to1_b_1543_18_alg».proof.Proof.Gen.Kernel

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as a launch of SparseCore kernels -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their chunks -/

variable (m : (ℓ : Loc nD τ sig) → Buf (Elt F) ℓ)

/-- The unused first argument, the table, the result: as locations of device `d`. -/
abbrev aLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The table's contents at the launch, read as contents of the result array (the two arrays have one type). -/
abbrev tab (d : Dev nD) : Buf (Elt F) (oLoc d) := m (xLoc d)

theorem hdiv : 256 ∣ S8192x1024.size 0 := ⟨32, rfl⟩

/-- Chunk `g` of the eight of vector subcore `i` of SparseCore `c`, among the 256. -/
def nOf (c : Fin 2) (i : Fin 16) (g : Fin 8) : Fin 256 := ⟨(2 * i.val + c.val) * 8 + g.val, by omega⟩

theorem nOf_injective : Function.Injective fun t : Fin 2 × Fin 16 × Fin 8 => nOf t.1 t.2.1 t.2.2 := by
  rintro ⟨c, i, g⟩ ⟨c', i', g'⟩ h
  have h' : (2 * i.val + c.val) * 8 + g.val = (2 * i'.val + c'.val) * 8 + g'.val := congrArg Fin.val h
  have := c.isLt; have := c'.isLt; have := g.isLt; have := g'.isLt
  have hc : c = c' := Fin.ext (by omega)
  have hi : i = i' := Fin.ext (by omega)
  have hg : g = g' := Fin.ext (by omega)
  rw [hc, hi, hg]

theorem nOf_surjective (n : Fin 256) : ∃ t : Fin 2 × Fin 16 × Fin 8, nOf t.1 t.2.1 t.2.2 = n := by
  have := n.isLt
  exact ⟨(⟨(n.val / 8) % 2, by omega⟩, ⟨n.val / 16, by omega⟩, ⟨n.val % 8, by omega⟩), Fin.ext (by show (2 * (n.val / 16) + (n.val / 8) % 2) * 8 + n.val % 8 = n.val; omega)⟩

abbrev crect (c : Fin 2) (i : Fin 16) (g : Fin 8) : Rect S8192x1024 := Rect.part (s := S8192x1024) (a₀ := 0) hdiv (nOf c i g)
/-- The chunk's elements. -/
def cset (c : Fin 2) (i : Fin 16) (g : Fin 8) : Finset S8192x1024.Idx := (crect c i g).set

theorem csets_disjoint : ∀ t ∈ (Finset.univ : Finset (Fin 2 × Fin 16 × Fin 8)), ∀ t' ∈ (Finset.univ : Finset (Fin 2 × Fin 16 × Fin 8)), t ≠ t' →
    Disjoint (cset t.1 t.2.1 t.2.2) (cset t'.1 t'.2.1 t'.2.2) :=
  fun _ _ _ _ h => Rect.part_disjoint hdiv fun e => h (nOf_injective e)

theorem csets_cover : (Finset.univ : Finset (Fin 2 × Fin 16 × Fin 8)).biUnion (fun t => cset t.1 t.2.1 t.2.2) = Finset.univ := by
  rw [← Rect.biUnion_part (s := S8192x1024) (a₀ := 0) hdiv]
  ext x
  simp only [Finset.mem_biUnion, Finset.mem_univ, true_and]
  constructor
  · rintro ⟨t, ht⟩; exact ⟨_, ht⟩
  · rintro ⟨n, hn⟩
    obtain ⟨t, rfl⟩ := nOf_surjective n
    exact ⟨t, hn⟩

/-! ## What a task is handed, and what it hands back -/

/-- The eight chunks of one array that task `(c, i)` owns, at contents `f`. -/
def XS (d : Dev nD) (c : Fin 2) (i : Fin 16) (f : Buf (Elt F) (xLoc d)) : sProp 𝕄 :=
  bigSep Finset.univ fun g : Fin 8 => xLoc d ↦[cset c i g]{fullShare} f
def OS (d : Dev nD) (c : Fin 2) (i : Fin 16) (f : Buf (Elt F) (oLoc d)) : sProp 𝕄 :=
  bigSep Finset.univ fun g : Fin 8 => oLoc d ↦[cset c i g]{fullShare} f

/-- To the task: its chunks of the table and of the result, as the launch found them. -/
def GOf (d : Dev nD) (c : Fin 2) (i : Fin 16) : sProp 𝕄 := iprop(XS d c i (m (xLoc d)) ∗ OS d c i (m (oLoc d)))
/-- From the task: the table's chunks unchanged, the result's chunks holding the table's rows. -/
def TDf (d : Dev nD) (c : Fin 2) (i : Fin 16) : sProp 𝕄 := iprop(XS d c i (m (xLoc d)) ∗ OS d c i (tab m d))

omit m in
theorem fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

instance XS_storable (d : Dev nD) (c : Fin 2) (i : Fin 16) (f : Buf (Elt F) (xLoc d)) : BI.Storable (upEmb : UEmb _ 𝕄) (XS d c i f) := by
  unfold XS; rw [fin8]; infer_instance
instance OS_storable (d : Dev nD) (c : Fin 2) (i : Fin 16) (f : Buf (Elt F) (oLoc d)) : BI.Storable (upEmb : UEmb _ 𝕄) (OS d c i f) := by
  unfold OS; rw [fin8]; infer_instance
instance GOf_storable (d : Dev nD) (c : Fin 2) (i : Fin 16) : BI.Storable (upEmb : UEmb _ 𝕄) (GOf m d c i) := by
  unfold GOf; infer_instance
instance TDf_storable (d : Dev nD) (c : Fin 2) (i : Fin 16) : BI.Storable (upEmb : UEmb _ 𝕄) (TDf m d c i) := by
  unfold TDf; infer_instance

/-- The one call: a SparseCore is handed its sixteen tasks' chunks and hands back theirs; a task its own. -/
def P : (K (F := F)).Pay (nD := nD) (Val := Elt F) (Name := ℕ) (U := UU) where
  st := fun q d c => match q with
    | 0 => bigSep Finset.univ fun i : Fin 16 => GOf m d (Fin.cast nCore_zero c) i
  dn := fun q d c => match q with
    | 0 => bigSep Finset.univ fun i : Fin 16 => TDf m d (Fin.cast nCore_zero c) i
  go := fun q d c i => match q with
    | 0 => GOf m d (Fin.cast nCore_zero c) (Fin.cast nSub_zero i)
  td := fun q d c i => match q with
    | 0 => TDf m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => GOf m d (Fin.cast nCore_zero c) i))
  dn q d c := match q with
    | 0 => (inferInstance : BI.Storable (upEmb : UEmb _ 𝕄) (bigSep Finset.univ fun i : Fin 16 => TDf m d (Fin.cast nCore_zero c) i))
  go q d c i := match q with
    | 0 => (inferInstance : BI.Storable (upEmb : UEmb _ 𝕄) (GOf m d (Fin.cast nCore_zero c) (Fin.cast nSub_zero i)))
  td q d c i := match q with
    | 0 => (inferInstance : BI.Storable (upEmb : UEmb _ 𝕄) (TDf m d (Fin.cast nCore_zero c) (Fin.cast nSub_zero i)))

end Cert.Proof.KB

end
-- ==== Proof.KBTileGeom.lean ====
/-
  One task of the copy kernel: its geometry.  Vector subcore i of SparseCore c moves its eight chunks of 32 rows from
  the table to the same rows of the result, each through one of three slots of its scratch: chunk g is
  fetched into slot g mod 3 and written out from it, the fetch of chunk g + 3 issued only after the
  write-out of chunk g has been waited for, so that no slot is written while it is still being read.
  Each copy carries its source's rows as they stand, so a slot after its fetch holds the chunk's rows
  of the table, and the result's chunk after its write-out holds the same rows: read through the chunk,
  the result is the table.
-/
import proofs.«202655_g3478923510319_cont_8to1_b_1543_18_alg».proof.Proof.KBSetup
import proofs.«202655_g3478923510319_cont_8to1_b_1543_18_alg».proof.Proof.Gen.Kernel.Skeleton
import proofs.«202655_g3478923510319_cont_8to1_b_1543_18_alg».proof.Proof.LibWholeView

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWholeView

variable {F : FTy → Type}

local notation "𝕄" => MT nD τ sig (HIx 1) (Elt F) ℕ UU ℕ

variable (m : (ℓ : Loc nD τ sig) → Buf (Elt F) ℓ)

-- the kernel's memrefs, spelt as the body table passes them
local notation "xW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S8192x1024 EltTy.f32)
local notation "sW" => (Memref.whole Cert.Kernel.cc0_scratch0 : Memref Cert.Kernel.sig Kind.scVector Space.vmem Cert.Kernel.S3x32x1024 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev iL (L : grid0.Coords) : Fin 16 := Fin.cast bound_one (L 1)
/-- The task's thread. -/
abbrev thr (d : Dev nD) (L : grid0.Coords) : Thread nD τ := V d (cV L) (jV L)
abbrev sLoc (d : Dev nD) (L : grid0.Coords) : Loc nD τ sig := (thr d L).loc cc0_scratch0

/-- A chunk of the table, of the result, and the three slots of the scratch, as the body slices them. -/
abbrev xC (L : grid0.Coords) (o : BitVec 32) (h : ∀ a, k0_off1 L o a + S32x1024.size a ≤ S8192x1024.size a) : Memref sig .scVector .hbm S32x1024 .f32 :=
  (xW).slice (Rect.unit (s := S8192x1024) (k0_off1 L o) S32x1024.size h) (fun _ => rfl)
abbrev oC (L : grid0.Coords) (o : BitVec 32) (h : ∀ a, k0_off1 L o a + S32x1024.size a ≤ S8192x1024.size a) : Memref sig .scVector .hbm S32x1024 .f32 :=
  (oW).slice (Rect.unit (s := S8192x1024) (k0_off1 L o) S32x1024.size h) (fun _ => rfl)
abbrev sB0 : Memref sig .scVector .vmem S32x1024 .f32 :=
  ((sW).slice (Rect.unit (s := S3x32x1024) ![0, 0, 0] S1x32x1024.size inb_S3x32x1024_S1x32x1024_0_0_0) (fun _ => rfl)).squeeze S32x1024 squeezes_S1x32x1024_S32x1024
abbrev sB1 : Memref sig .scVector .vmem S32x1024 .f32 :=
  ((sW).slice (Rect.unit (s := S3x32x1024) ![1, 0, 0] S1x32x1024.size inb_S3x32x1024_S1x32x1024_1_0_0) (fun _ => rfl)).squeeze S32x1024 squeezes_S1x32x1024_S32x1024
abbrev sB2 : Memref sig .scVector .vmem S32x1024 .f32 :=
  ((sW).slice (Rect.unit (s := S3x32x1024) ![2, 0, 0] S1x32x1024.size inb_S3x32x1024_S1x32x1024_2_0_0) (fun _ => rfl)).squeeze S32x1024 squeezes_S1x32x1024_S32x1024

/-! ## The chunks and slots as element sets -/

omit [FloatOps F] in
theorem unit_congr {s : Shape} {off off' size size' : Fin s.rank → ℕ} (inb : ∀ a, off a + size a ≤ s.size a) (inb' : ∀ a, off' a + size' a ≤ s.size a)
    (h1 : off = off') (h2 : size = size') : Rect.unit off size inb = Rect.unit off' size' inb' := by
  subst h1; subst h2; rfl

omit [FloatOps F] in
/-- Chunk `g` as the body addresses it — at row 512·i + 256·c + 32·g — is chunk (2·i + c)·8 + g of the 256. -/
theorem rect_eq (g : Fin 8) (h : ∀ a, k0_off1 L (BitVec.ofNat 32 (32 * g.val)) a + S32x1024.size a ≤ S8192x1024.size a) :
    Rect.unit (s := S8192x1024) (k0_off1 L (BitVec.ofNat 32 (32 * g.val))) S32x1024.size h = crect (cL L) (iL L) g := by
  unfold crect Rect.part Rect.block
  refine unit_congr _ _ ?_ ?_
  · rw [k0_off1_eq]
    funext a
    match a with
    | 0 => simp [Shape.partIx, Shape.partSize, nOf]; omega
    | 1 => simp [Shape.partIx, Shape.partSize]
  · funext a
    match a with
    | 0 => simp [Shape.partSize]
    | 1 => simp [Shape.partSize]

omit [FloatOps F] in
theorem set_xC (g : Fin 8) (o : BitVec 32) (ho : o = BitVec.ofNat 32 (32 * g.val)) (h : ∀ a, k0_off1 L o a + S32x1024.size a ≤ S8192x1024.size a) :
    (xC L o h).view.set = cset (cL L) (iL L) g := by
  subst ho
  show ((View.whole (main_arg1_scv : Ref sig .scVector)).slice (Rect.unit (s := S8192x1024) (k0_off1 L _) S32x1024.size h)).set = (crect (cL L) (iL L) g).set
  rw [View.set_slice_whole, rect_eq]
omit [FloatOps F] in
theorem set_oC (g : Fin 8) (o : BitVec 32) (ho : o = BitVec.ofNat 32 (32 * g.val)) (h : ∀ a, k0_off1 L o a + S32x1024.size a ≤ S8192x1024.size a) :
    (oC L o h).view.set = cset (cL L) (iL L) g := by
  subst ho
  show ((View.whole (main_v0_scv : Ref sig .scVector)).slice (Rect.unit (s := S8192x1024) (k0_off1 L _) S32x1024.size h)).set = (crect (cL L) (iL L) g).set
  rw [View.set_slice_whole, rect_eq]

omit [FloatOps F] in
theorem pts_x (g : Fin 8) (o : BitVec 32) (ho : o = BitVec.ofNat 32 (32 * g.val)) (h : ∀ a, k0_off1 L o a + S32x1024.size a ≤ S8192x1024.size a) (f : Buf (Elt F) (xLoc d)) :
    ((xC L o h).view.loc (thr d L) ↦[(xC L o h).view.set]{fullShare} f : sProp 𝕄) = xLoc d ↦[cset (cL L) (iL L) g]{fullShare} f := by
  rw [set_xC L g o ho h]
omit [FloatOps F] in
theorem pts_o (g : Fin 8) (o : BitVec 32) (ho : o = BitVec.ofNat 32 (32 * g.val)) (h : ∀ a, k0_off1 L o a + S32x1024.size a ≤ S8192x1024.size a) (f : Buf (Elt F) (oLoc d)) :
    ((oC L o h).view.loc (thr d L) ↦[(oC L o h).view.set]{fullShare} f : sProp 𝕄) = oLoc d ↦[cset (cL L) (iL L) g]{fullShare} f := by
  rw [set_oC L g o ho h]

omit [FloatOps F] in
theorem hdiv3 : 3 ∣ S3x32x1024.size 0 := ⟨1, rfl⟩
/-- A slot's elements. -/
def slot (b : Fin 3) : Finset S3x32x1024.Idx := (Rect.part (s := S3x32x1024) (a₀ := 0) hdiv3 b).set

omit [FloatOps F] in
theorem slotRect_eq (b : Fin 3) (h : ∀ a, (![b.val, 0, 0] : Fin 3 → ℕ) a + S1x32x1024.size a ≤ S3x32x1024.size a) :
    Rect.unit (s := S3x32x1024) ![b.val, 0, 0] S1x32x1024.size h = Rect.part (s := S3x32x1024) (a₀ := 0) hdiv3 b := by
  unfold Rect.part Rect.block
  refine unit_congr _ _ ?_ ?_
  · funext a
    match a with
    | 0 => simp [Shape.partIx, Shape.partSize]
    | 1 => simp [Shape.partIx, Shape.partSize]
    | 2 => simp [Shape.partIx, Shape.partSize]
  · funext a
    match a with
    | 0 => simp [Shape.partSize]
    | 1 => simp [Shape.partSize]
    | 2 => simp [Shape.partSize]

omit [FloatOps F] in
theorem set_sB0 : (sB0).view.set = slot 0 := by
  show (((View.whole (cc0_scratch0 : Ref sig .scVector)).slice (Rect.unit (s := S3x32x1024) ![0, 0, 0] S1x32x1024.size inb_S3x32x1024_S1x32x1024_0_0_0)).reshape S32x1024 squeezes_S1x32x1024_S32x1024.numel_eq).set = _
  rw [View.set_reshape, View.set_slice_whole]
  exact congrArg (fun r : Rect S3x32x1024 => r.set) (slotRect_eq 0 _)
omit [FloatOps F] in
theorem set_sB1 : (sB1).view.set = slot 1 := by
  show (((View.whole (cc0_scratch0 : Ref sig .scVector)).slice (Rect.unit (s := S3x32x1024) ![1, 0, 0] S1x32x1024.size inb_S3x32x1024_S1x32x1024_1_0_0)).reshape S32x1024 squeezes_S1x32x1024_S32x1024.numel_eq).set = _
  rw [View.set_reshape, View.set_slice_whole]
  exact congrArg (fun r : Rect S3x32x1024 => r.set) (slotRect_eq 1 _)
omit [FloatOps F] in
theorem set_sB2 : (sB2).view.set = slot 2 := by
  show (((View.whole (cc0_scratch0 : Ref sig .scVector)).slice (Rect.unit (s := S3x32x1024) ![2, 0, 0] S1x32x1024.size inb_S3x32x1024_S1x32x1024_2_0_0)).reshape S32x1024 squeezes_S1x32x1024_S32x1024.numel_eq).set = _
  rw [View.set_reshape, View.set_slice_whole]
  exact congrArg (fun r : Rect S3x32x1024 => r.set) (slotRect_eq 2 _)

omit [FloatOps F] in
theorem slots_disjoint : ∀ b ∈ (Finset.univ : Finset (Fin 3)), ∀ b' ∈ (Finset.univ : Finset (Fin 3)), b ≠ b' → Disjoint (slot b) (slot b') :=
  fun _ _ _ _ h => Rect.part_disjoint hdiv3 h
omit [FloatOps F] in
theorem slots_cover : (Finset.univ : Finset (Fin 3)).biUnion slot = Finset.univ := Rect.biUnion_part hdiv3

omit [FloatOps F] in
theorem fin3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

omit [FloatOps F] in
/-- The scratch held whole is its three slots held one by one. -/
theorem scratch_slots (f : Buf (Elt F) (sLoc d L)) :
    (sLoc d L ↦{fullShare} f : sProp 𝕄) = iprop((sLoc d L ↦[slot 0]{fullShare} f) ∗ (sLoc d L ↦[slot 1]{fullShare} f) ∗ sLoc d L ↦[slot 2]{fullShare} f) := by
  rw [← fin3 (F := F) (fun b => sLoc d L ↦[slot b]{fullShare} f), ← pointsTo_biUnion Finset.univ (ℓ := sLoc d L) slot slots_disjoint, slots_cover]; try rfl

omit [FloatOps F] in
theorem slots_union : slot 0 ∪ (slot 1 ∪ slot 2) = Finset.univ := by
  have h := slots_cover
  rw [show (Finset.univ : Finset (Fin 3)) = {0, 1, 2} by decide, Finset.biUnion_insert, Finset.biUnion_insert, Finset.singleton_biUnion] at h
  exact h

omit [FloatOps F] in
/-- Three slots held at whatever contents are the scratch held whole at some contents. -/
theorem scratch_join (f0 f1 f2 : Buf (Elt F) (sLoc d L)) :
    iprop((sLoc d L ↦[slot 0]{fullShare} f0) ∗ (sLoc d L ↦[slot 1]{fullShare} f1) ∗ sLoc d L ↦[slot 2]{fullShare} f2)
      ⊢ (iprop(∃ f, sLoc d L ↦{fullShare} f) : sProp 𝕄) := by
  have h12 : Disjoint (slot 1) (slot 2) := slots_disjoint 1 (Finset.mem_univ _) 2 (Finset.mem_univ _) (by decide)
  have h0 : Disjoint (slot 0) (slot 1 ∪ slot 2) :=
    Finset.disjoint_union_right.mpr ⟨slots_disjoint 0 (Finset.mem_univ _) 1 (Finset.mem_univ _) (by decide), slots_disjoint 0 (Finset.mem_univ _) 2 (Finset.mem_univ _) (by decide)⟩
  iintro ⟨H0, H1, H2⟩
  ihave H12 := (pointsTo_join (ℓ := sLoc d L) (f := f1) (g := f2) h12) $$ [H1 H2]
  · isplitl [H1] <;> iassumption
  ihave H := (pointsTo_join (ℓ := sLoc d L) (f := f0) h0) $$ [H0 H12]
  · isplitl [H0] <;> iassumption
  rw [slots_union]
  iexists _; iexact H

omit [FloatOps F] in
theorem pts_s0 (f : Buf (Elt F) (sLoc d L)) : ((sB0).view.loc (thr d L) ↦[(sB0).view.set]{fullShare} f : sProp 𝕄) = sLoc d L ↦[slot 0]{fullShare} f := by rw [set_sB0]
omit [FloatOps F] in
theorem pts_s1 (f : Buf (Elt F) (sLoc d L)) : ((sB1).view.loc (thr d L) ↦[(sB1).view.set]{fullShare} f : sProp 𝕄) = sLoc d L ↦[slot 1]{fullShare} f := by rw [set_sB1]
omit [FloatOps F] in
theorem pts_s2 (f : Buf (Elt F) (sLoc d L)) : ((sB2).view.loc (thr d L) ↦[(sB2).view.set]{fullShare} f : sProp 𝕄) = sLoc d L ↦[slot 2]{fullShare} f := by rw [set_sB2]

/-! ## The subcore's own semaphores and buffer -/

abbrev cell1 (d : Dev nD) (L : grid0.Coords) : GSem nD τ sig := (thr d L, .dma cc0_scratch1.sem)
abbrev cell2 (d : Dev nD) (L : grid0.Coords) : GSem nD τ sig := (thr d L, .dma cc0_scratch2.sem)
abbrev cell3 (d : Dev nD) (L : grid0.Coords) : GSem nD τ sig := (thr d L, .dma cc0_scratch3.sem)
abbrev cell4 (d : Dev nD) (L : grid0.Coords) : GSem nD τ sig := (thr d L, .dma cc0_scratch4.sem)
abbrev cell5 (d : Dev nD) (L : grid0.Coords) : GSem nD τ sig := (thr d L, .dma cc0_scratch5.sem)
abbrev cell6 (d : Dev nD) (L : grid0.Coords) : GSem nD τ sig := (thr d L, .dma cc0_scratch6.sem)

omit [FloatOps F] in
theorem cell_ne {s s' : DmaSem sig} (h : s ≠ s') : ((thr d L, SemLoc.dma s) : GSem nD τ sig) ≠ (thr d L, SemLoc.dma s') :=
  fun e => h (SemLoc.dma.inj (Prod.mk.inj e).2)
omit [FloatOps F] in
theorem cell_mem (s : DmaSem sig) (h : (SemLoc.dma s : SemLoc sig).isScoped .scVector = true) : ((thr d L, SemLoc.dma s) : GSem nD τ sig) ∈ ownCells (thr d L) :=
  (mem_ownCells (g := (thr d L, SemLoc.dma s))).mpr ⟨rfl, h⟩

omit [FloatOps F] in
theorem ownSems0_V :
    (ownSems0 (thr d L) : sProp 𝕄)
      = iprop(semVal (cell1 d L) 0 ∗ semVal (cell2 d L) 0 ∗ semVal (cell3 d L) 0 ∗ semVal (cell4 d L) 0 ∗ semVal (cell5 d L) 0 ∗ semVal (cell6 d L) 0
          ∗ bigSep ((((((((ownCells (thr d L)).erase (cell1 d L)).erase (cell2 d L)).erase (cell3 d L)).erase (cell4 d L)).erase (cell5 d L)).erase (cell6 d L)))
              fun g => semVal g 0) := by
  unfold SparseCore.Cfg.ownSems0
  have m1 := cell_mem d L cc0_scratch1.sem (by decide)
  have m2 := cell_mem d L cc0_scratch2.sem (by decide)
  have m3 := cell_mem d L cc0_scratch3.sem (by decide)
  have m4 := cell_mem d L cc0_scratch4.sem (by decide)
  have m5 := cell_mem d L cc0_scratch5.sem (by decide)
  have m6 := cell_mem d L cc0_scratch6.sem (by decide)
  have n21 : cell2 d L ≠ cell1 d L := cell_ne d L (by decide)
  have n31 : cell3 d L ≠ cell1 d L := cell_ne d L (by decide)
  have n32 : cell3 d L ≠ cell2 d L := cell_ne d L (by decide)
  have n41 : cell4 d L ≠ cell1 d L := cell_ne d L (by decide)
  have n42 : cell4 d L ≠ cell2 d L := cell_ne d L (by decide)
  have n43 : cell4 d L ≠ cell3 d L := cell_ne d L (by decide)
  have n51 : cell5 d L ≠ cell1 d L := cell_ne d L (by decide)
  have n52 : cell5 d L ≠ cell2 d L := cell_ne d L (by decide)
  have n53 : cell5 d L ≠ cell3 d L := cell_ne d L (by decide)
  have n54 : cell5 d L ≠ cell4 d L := cell_ne d L (by decide)
  have n61 : cell6 d L ≠ cell1 d L := cell_ne d L (by decide)
  have n62 : cell6 d L ≠ cell2 d L := cell_ne d L (by decide)
  have n63 : cell6 d L ≠ cell3 d L := cell_ne d L (by decide)
  have n64 : cell6 d L ≠ cell4 d L := cell_ne d L (by decide)
  have n65 : cell6 d L ≠ cell5 d L := cell_ne d L (by decide)
  rw [SparseCore.bigSep_erase' m1,
    SparseCore.bigSep_erase' (Finset.mem_erase.mpr ⟨n21, m2⟩),
    SparseCore.bigSep_erase' (Finset.mem_erase.mpr ⟨n32, Finset.mem_erase.mpr ⟨n31, m3⟩⟩),
    SparseCore.bigSep_erase' (Finset.mem_erase.mpr ⟨n43, Finset.mem_erase.mpr ⟨n42, Finset.mem_erase.mpr ⟨n41, m4⟩⟩⟩),
    SparseCore.bigSep_erase' (Finset.mem_erase.mpr ⟨n54, Finset.mem_erase.mpr ⟨n53, Finset.mem_erase.mpr ⟨n52, Finset.mem_erase.mpr ⟨n51, m5⟩⟩⟩⟩),
    SparseCore.bigSep_erase' (Finset.mem_erase.mpr ⟨n65, Finset.mem_erase.mpr ⟨n64, Finset.mem_erase.mpr ⟨n63, Finset.mem_erase.mpr ⟨n62, Finset.mem_erase.mpr ⟨n61, m6⟩⟩⟩⟩⟩)]

omit [FloatOps F] in
/-- The scratch is among the subcore's own buffers: it is that, at some contents, and the rest. -/
theorem ownBufs_V :
    (ownBufs (thr d L) : sProp 𝕄)
      = iprop((∃ f, sLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## What a chunk of the result holds after its write-out -/

omit [FloatOps F] in
/-- Read through a chunk, the table's contents taken as contents of the result are the table's chunk. -/
theorem read_tab (o : BitVec 32) (h : ∀ a, k0_off1 L o a + S32x1024.size a ≤ S8192x1024.size a) :
    (oC L o h).view.read (Elt F) (tab m d) = (xC L o h).view.read (Elt F) (m (xLoc d)) := rfl

omit [FloatOps F] in
/-- A chunk of the result last written whole with the table's chunk is, on its own elements, the table. -/
theorem out_val (g : Fin 8) (o : BitVec 32) (ho : o = BitVec.ofNat 32 (32 * g.val)) (h : ∀ a, k0_off1 L o a + S32x1024.size a ≤ S8192x1024.size a)
    (f : Buf (Elt F) (oLoc d)) (p : S32x1024.Idx → Elt F .f32) (Ls : List (View.Piece (Elt F) S32x1024 .f32))
    (hp : p = (xC L o h).view.read (Elt F) (m (xLoc d))) :
    ((oC L o h).view.loc (thr d L) ↦[(oC L o h).view.set]{fullShare} (oC L o h).view.writes (Elt F) f (⟨Rect.whole S32x1024, p⟩ :: Ls) : sProp 𝕄)
      = oLoc d ↦[cset (cL L) (iL L) g]{fullShare} tab m d := by
  have hr : (oC L o h).view.read (Elt F) ((oC L o h).view.writes (Elt F) f (⟨Rect.whole S32x1024, p⟩ :: Ls)) = (oC L o h).view.read (Elt F) (tab m d) := by
    rw [read_writes_whole_cons, hp]; rfl
  rw [pointsTo_congr (eq_on_set_of_read_eq (oC L o h).view _ (tab m d) hr)]
  exact pts_o d L g o ho h _

omit [FloatOps F] in
theorem insert_ok {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

end Tile

end Cert.Proof.KB

end
-- ==== Proof.KBTile.lean ====
/-
  One task of the copy kernel, run.  Vector subcore i of SparseCore c moves its eight chunks of 32 rows
  from the table to the same rows of the result, each through one of three slots of its scratch: chunk g
  is fetched into slot g mod 3 and written out from it, the fetch of chunk g + 3 issued only after the
  write-out of chunk g has been waited for, so that no slot is written while it is still being read, and
  no two copies are ever in flight on one semaphore.  Each copy carries its source's rows as they stand:
  a slot after its fetch holds the chunk's rows of the table, whatever it held before, and the result's
  chunk after its write-out holds those rows.  So the task hands back the table's chunks unchanged and
  the result's chunks holding the table's rows, its scratch and semaphores as it found them.
-/
import proofs.«202655_g3478923510319_cont_8to1_b_1543_18_alg».proof.Proof.KBTileGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWholeView

variable {F : FTy → Type}

local notation "𝕄" => MT nD τ sig (HIx 1) (Elt F) ℕ UU ℕ

variable (m : (ℓ : Loc nD τ sig) → Buf (Elt F) ℓ)

-- the kernel's memrefs, spelt as the body table passes them
local notation "xW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S8192x1024 EltTy.f32)
local notation "sW" => (Memref.whole Cert.Kernel.cc0_scratch0 : Memref Cert.Kernel.sig Kind.scVector Space.vmem Cert.Kernel.S3x32x1024 EltTy.f32)

variable [FloatOps F]

section Tile

variable (d : Dev nD) (L : grid0.Coords)

/-- The task on vector subcore `(L 0, L 1)` of device `d`: eight fetches, eight write-outs and their sixteen waits. -/
theorem tile_body (hF : (K (F := F)).Facts) (O : CellTallies nD τ sig (HIx 1)) (W : Waits sig (HIx 1)) (hO : ∀ g, O g none = 0) :
    iprop(levAts (K (F := F)).L (K (F := F)).lev ∗ emp ∗ GOf m d (cL L) (iL L)
        ∗ scopedBufs (thr d L) ∗ scopedSems0 (thr d L) ∗ owes (thr d L) O W)
      ⊢ wp frame (wpE (defs₀ (F := F)) 𝒱₀ (thr d L) none) Set.univ
          (cc0_body L xW (Memref.isWhole_whole _) oW (Memref.isWhole_whole _) sW (Memref.isWhole_whole _)
            cc0_scratch1 cc0_scratch2 cc0_scratch3 cc0_scratch4 cc0_scratch5 cc0_scratch6)
          fun _ => iprop(TDf m d (cL L) (iL L) ∗ scopedBufs (thr d L) ∗ scopedSems0 (thr d L)
            ∗ ∃ W', ⌜∀ p ∈ W', p ∈ W ∨ p.2 = none⌝ ∗ owes (thr d L) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold GOf TDf XS OS
  simp only [fin8]
  iintro ⟨#Hlv, -, ⟨⟨Hx0, Hx1, Hx2, Hx3, Hx4, Hx5, Hx6, Hx7⟩, ⟨Ho0, Ho1, Ho2, Ho3, Ho4, Ho5, Ho6, Ho7⟩⟩, ⟨⟨%fs, Hs⟩, Hbufs⟩, ⟨H1, H2, H3, H4, H5, H6, Hsems⟩, HO⟩
  ihave Hs' := (Entails.of_eq (scratch_slots (F := F) d L fs)) $$ Hs
  icases Hs' with ⟨Hs0, Hs1, Hs2⟩
  ihave Hmw := ((K (F := F)).mayWaits_none (thr := thr d L) hO) $$ Hlv
  ihave Hx0' := (Entails.of_eq (pts_x (F := F) d L 0 0#32 rfl (k0_off1_inb L 0) _).symm) $$ Hx0
  ihave Hx1' := (Entails.of_eq (pts_x (F := F) d L 1 32#32 rfl (k0_off1_inb L 1) _).symm) $$ Hx1
  ihave Hx2' := (Entails.of_eq (pts_x (F := F) d L 2 64#32 rfl (k0_off1_inb L 2) _).symm) $$ Hx2
  ihave Hx3' := (Entails.of_eq (pts_x (F := F) d L 3 96#32 rfl (k0_off1_inb L 3) _).symm) $$ Hx3
  ihave Hx4' := (Entails.of_eq (pts_x (F := F) d L 4 128#32 rfl (k0_off1_inb L 4) _).symm) $$ Hx4
  ihave Hx5' := (Entails.of_eq (pts_x (F := F) d L 5 160#32 rfl (k0_off1_inb L 5) _).symm) $$ Hx5
  ihave Hx6' := (Entails.of_eq (pts_x (F := F) d L 6 192#32 rfl (k0_off1_inb L 6) _).symm) $$ Hx6
  ihave Hx7' := (Entails.of_eq (pts_x (F := F) d L 7 224#32 rfl (k0_off1_inb L 7) _).symm) $$ Hx7
  ihave Ho0' := (Entails.of_eq (pts_o (F := F) d L 0 0#32 rfl (k0_off1_inb L 0) _).symm) $$ Ho0
  ihave Ho1' := (Entails.of_eq (pts_o (F := F) d L 1 32#32 rfl (k0_off1_inb L 1) _).symm) $$ Ho1
  ihave Ho2' := (Entails.of_eq (pts_o (F := F) d L 2 64#32 rfl (k0_off1_inb L 2) _).symm) $$ Ho2
  ihave Ho3' := (Entails.of_eq (pts_o (F := F) d L 3 96#32 rfl (k0_off1_inb L 3) _).symm) $$ Ho3
  ihave Ho4' := (Entails.of_eq (pts_o (F := F) d L 4 128#32 rfl (k0_off1_inb L 4) _).symm) $$ Ho4
  ihave Ho5' := (Entails.of_eq (pts_o (F := F) d L 5 160#32 rfl (k0_off1_inb L 5) _).symm) $$ Ho5
  ihave Ho6' := (Entails.of_eq (pts_o (F := F) d L 6 192#32 rfl (k0_off1_inb L 6) _).symm) $$ Ho6
  ihave Ho7' := (Entails.of_eq (pts_o (F := F) d L 7 224#32 rfl (k0_off1_inb L 7) _).symm) $$ Ho7
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_exec
  sl_step
  -- what each write-out carried: the slot's last fetch, the table's chunk
  have hp0 : tile_body.sl.dma0_3 m d L fs = (xC L 0#32 (k0_off1_inb L 0)).view.read (Elt F) (m (xLoc d)) := by
    unfold tile_body.sl.dma0_3
    exact (read_writes_whole_cons _ _ _ _).trans rfl
  have hp1 : tile_body.sl.dma0_5 m d L fs = (xC L 32#32 (k0_off1_inb L 1)).view.read (Elt F) (m (xLoc d)) := by
    unfold tile_body.sl.dma0_5
    exact (read_writes_whole_cons _ _ _ _).trans rfl
  have hp2 : tile_body.sl.dma0_7 m d L fs = (xC L 64#32 (k0_off1_inb L 2)).view.read (Elt F) (m (xLoc d)) := by
    unfold tile_body.sl.dma0_7
    exact (read_writes_whole_cons _ _ _ _).trans rfl
  have hp3 : tile_body.sl.dma0_9 m d L fs = (xC L 96#32 (k0_off1_inb L 3)).view.read (Elt F) (m (xLoc d)) := by
    unfold tile_body.sl.dma0_9
    exact (read_writes_whole_cons _ _ _ _).trans rfl
  have hp4 : tile_body.sl.dma0_11 m d L fs = (xC L 128#32 (k0_off1_inb L 4)).view.read (Elt F) (m (xLoc d)) := by
    unfold tile_body.sl.dma0_11
    exact (read_writes_whole_cons _ _ _ _).trans rfl
  have hp5 : tile_body.sl.dma0_13 m d L fs = (xC L 160#32 (k0_off1_inb L 5)).view.read (Elt F) (m (xLoc d)) := by
    unfold tile_body.sl.dma0_13
    exact (read_writes_whole_cons _ _ _ _).trans rfl
  have hp6 : tile_body.sl.dma0_14 m d L fs = (xC L 192#32 (k0_off1_inb L 6)).view.read (Elt F) (m (xLoc d)) := by
    unfold tile_body.sl.dma0_14
    exact (read_writes_whole_cons _ _ _ _).trans rfl
  have hp7 : tile_body.sl.dma0_15 m d L fs = (xC L 224#32 (k0_off1_inb L 7)).view.read (Elt F) (m (xLoc d)) := by
    unfold tile_body.sl.dma0_15
    exact (read_writes_whole_cons _ _ _ _).trans rfl
  isplitl [Hx0' Hx1' Hx2' Hx3' Hx4' Hx5' Hx6' Hx7' Ho0' Ho1' Ho2' Ho3' Ho4' Ho5' Ho6' Ho7']
  · isplitl [Hx0' Hx1' Hx2' Hx3' Hx4' Hx5' Hx6' Hx7']
    ·
      isplitl [Hx0']; · iapply (Entails.of_eq (pts_x (F := F) d L 0 0#32 rfl (k0_off1_inb L 0) _)); iexact Hx0'
      isplitl [Hx1']; · iapply (Entails.of_eq (pts_x (F := F) d L 1 32#32 rfl (k0_off1_inb L 1) _)); iexact Hx1'
      isplitl [Hx2']; · iapply (Entails.of_eq (pts_x (F := F) d L 2 64#32 rfl (k0_off1_inb L 2) _)); iexact Hx2'
      isplitl [Hx3']; · iapply (Entails.of_eq (pts_x (F := F) d L 3 96#32 rfl (k0_off1_inb L 3) _)); iexact Hx3'
      isplitl [Hx4']; · iapply (Entails.of_eq (pts_x (F := F) d L 4 128#32 rfl (k0_off1_inb L 4) _)); iexact Hx4'
      isplitl [Hx5']; · iapply (Entails.of_eq (pts_x (F := F) d L 5 160#32 rfl (k0_off1_inb L 5) _)); iexact Hx5'
      isplitl [Hx6']; · iapply (Entails.of_eq (pts_x (F := F) d L 6 192#32 rfl (k0_off1_inb L 6) _)); iexact Hx6'
      iapply (Entails.of_eq (pts_x (F := F) d L 7 224#32 rfl (k0_off1_inb L 7) _)); iexact Hx7'
    ·
      isplitl [Ho0']; · iapply (Entails.of_eq (out_val (F := F) m d L 0 0#32 rfl (k0_off1_inb L 0) _ _ _ hp0)); iexact Ho0'
      isplitl [Ho1']; · iapply (Entails.of_eq (out_val (F := F) m d L 1 32#32 rfl (k0_off1_inb L 1) _ _ _ hp1)); iexact Ho1'
      isplitl [Ho2']; · iapply (Entails.of_eq (out_val (F := F) m d L 2 64#32 rfl (k0_off1_inb L 2) _ _ _ hp2)); iexact Ho2'
      isplitl [Ho3']; · iapply (Entails.of_eq (out_val (F := F) m d L 3 96#32 rfl (k0_off1_inb L 3) _ _ _ hp3)); iexact Ho3'
      isplitl [Ho4']; · iapply (Entails.of_eq (out_val (F := F) m d L 4 128#32 rfl (k0_off1_inb L 4) _ _ _ hp4)); iexact Ho4'
      isplitl [Ho5']; · iapply (Entails.of_eq (out_val (F := F) m d L 5 160#32 rfl (k0_off1_inb L 5) _ _ _ hp5)); iexact Ho5'
      isplitl [Ho6']; · iapply (Entails.of_eq (out_val (F := F) m d L 6 192#32 rfl (k0_off1_inb L 6) _ _ _ hp6)); iexact Ho6'
      iapply (Entails.of_eq (out_val (F := F) m d L 7 224#32 rfl (k0_off1_inb L 7) _ _ _ hp7)); iexact Ho7'
  isplitl [Hs0' Hs1' Hs2' Hbufs]
  · isplitl [Hs0' Hs1' Hs2']
    · iapply (scratch_join (F := F) d L _ _ _)
      isplitl [Hs0']; · iapply (Entails.of_eq (pts_s0 (F := F) d L _)); iexact Hs0'
      isplitl [Hs1']; · iapply (Entails.of_eq (pts_s1 (F := F) d L _)); iexact Hs1'
      iapply (Entails.of_eq (pts_s2 (F := F) d L _)); iexact Hs2'
    · iexact Hbufs
  isplitl [H1 H2 H3 H4 H5 H6 Hsems]
  · isplitl [H1]; · iexact H1
    isplitl [H2]; · iexact H2
    isplitl [H3]; · iexact H3
    isplitl [H4]; · iexact H4
    isplitl [H5]; · iexact H5
    isplitl [H6]; · iexact H6
    iexact Hsems
  iexists _; isplitr
  rotate_left
  · iexact HO
  · ipureintro
    repeat' apply insert_ok
    exact fun p hp => .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          xW (Memref.isWhole_whole _) oW (Memref.isWhole_whole _) sW (Memref.isWhole_whole _)
          cc0_scratch1 cc0_scratch2 cc0_scratch3 cc0_scratch4 cc0_scratch5 cc0_scratch6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the one call, as the launch states it. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KB

end
-- ==== Proof.KBLaunch.lean ====
/-
  The launch of the copy kernel: how the table and the result, whole in the TensorCore's hands, are dealt
  to the two SparseCores and their sixteen vector subcores chunk by chunk and gathered again, and the
  run of the whole family of threads from a proof of one task.  The 256 chunks are pairwise disjoint and
  cover each array, so an array held whole is its chunks held one by one; when every task has handed its
  chunks back — the table's unchanged, the result's holding the table's rows — the result array as a whole
  holds the table.
-/
import proofs.«202655_g3478923510319_cont_8to1_b_1543_18_alg».proof.Proof.KBSetup
import Idealize.ShloMosaic.Lib.StableHlo.Run

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## An array whole is its chunks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem xPts_chunks (d : Dev nD) (f : Buf (Elt F) (xLoc d)) :
    (xLoc d ↦{fullShare} f : sProp 𝕄) = bigSep Finset.univ fun c : Fin 2 => bigSep Finset.univ fun i : Fin 16 => XS d c i f := by
  have h : (xLoc d ↦{fullShare} f : sProp 𝕄) = bigSep Finset.univ fun t : Fin 2 × Fin 16 × Fin 8 => xLoc d ↦[cset t.1 t.2.1 t.2.2]{fullShare} f := by
    rw [← pointsTo_biUnion Finset.univ (ℓ := xLoc d) (fun t : Fin 2 × Fin 16 × Fin 8 => cset t.1 t.2.1 t.2.2) csets_disjoint, csets_cover]; try rfl
  rw [h, bigSep_univ_prod]
  refine bigSep_congr fun c _ => ?_
  rw [bigSep_univ_prod]
  rfl
theorem oPts_chunks (d : Dev nD) (f : Buf (Elt F) (oLoc d)) :
    (oLoc d ↦{fullShare} f : sProp 𝕄) = bigSep Finset.univ fun c : Fin 2 => bigSep Finset.univ fun i : Fin 16 => OS d c i f := by
  have h : (oLoc d ↦{fullShare} f : sProp 𝕄) = bigSep Finset.univ fun t : Fin 2 × Fin 16 × Fin 8 => oLoc d ↦[cset t.1 t.2.1 t.2.2]{fullShare} f := by
    rw [← pointsTo_biUnion Finset.univ (ℓ := oLoc d) (fun t : Fin 2 × Fin 16 × Fin 8 => cset t.1 t.2.1 t.2.2) csets_disjoint, csets_cover]; try rfl
  rw [h, bigSep_univ_prod]
  refine bigSep_congr fun c _ => ?_
  rw [bigSep_univ_prod]
  rfl

/-- What the call takes for the two SparseCores, and what it hands back. -/
theorem st0_eq (d : Dev nD) :
    (bigSep Finset.univ fun c : Fin ((K (F := F)).nCore 0) => (P m).st 0 d c) = iprop((xLoc d ↦{fullShare} m (xLoc d)) ∗ oLoc d ↦{fullShare} m (oLoc d)) := by
  show (bigSep Finset.univ fun c : Fin ((K (F := F)).nCore 0) => bigSep Finset.univ fun i : Fin 16 => GOf m d (Fin.cast nCore_zero c) i) = _
  rw [bigSep_cores (F := F) (fun c => bigSep Finset.univ fun i : Fin 16 => GOf m d c i), xPts_chunks, oPts_chunks, ← bigSep_sep']
  refine bigSep_congr fun c _ => ?_
  rw [← bigSep_sep']
  rfl
theorem dn0_eq (d : Dev nD) :
    (bigSep Finset.univ fun c : Fin ((K (F := F)).nCore 0) => (P m).dn 0 d c) = iprop((xLoc d ↦{fullShare} m (xLoc d)) ∗ oLoc d ↦{fullShare} tab m d) := by
  show (bigSep Finset.univ fun c : Fin ((K (F := F)).nCore 0) => bigSep Finset.univ fun i : Fin 16 => TDf m d (Fin.cast nCore_zero c) i) = _
  rw [bigSep_cores (F := F) (fun c => bigSep Finset.univ fun i : Fin 16 => TDf m d c i), xPts_chunks, oPts_chunks, ← bigSep_sep']
  refine bigSep_congr fun c _ => ?_
  rw [← bigSep_sep']
  rfl

/-- A SparseCore's chunks are its tasks' chunks, both ways. -/
theorem vecSplit : (K (F := F)).VecSplit' (P m) 0 := by
  intro d c
  show (bigSep Finset.univ fun i : Fin 16 => GOf m d (Fin.cast nCore_zero c) i) ⊢ |={Set.univ}=> iprop(
      (bigSep Finset.univ fun i : Fin ((K (F := F)).nSub 0) => GOf m d (Fin.cast nCore_zero c) (Fin.cast nSub_zero i))
      ∗ ((bigSep Finset.univ fun i : Fin ((K (F := F)).nSub 0) => TDf m d (Fin.cast nCore_zero c) (Fin.cast nSub_zero i))
          -∗ bigSep Finset.univ fun i : Fin 16 => TDf m d (Fin.cast nCore_zero c) i))
  rw [bigSep_tasks (F := F) (fun i => GOf m d (Fin.cast nCore_zero c) i), bigSep_tasks (F := F) (fun i => TDf m d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable [FloatOps F]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves the claim: the two arguments at their launch contents, the result holding the table. -/
abbrev FIN (d : Dev nD) : sProp 𝕄 := iprop((aLoc d ↦{fullShare} m (aLoc d)) ∗ (xLoc d ↦{fullShare} m (xLoc d)) ∗ oLoc d ↦{fullShare} tab m d)

/-- @main on device `d`'s TensorCore: the one call, from the table and the result; the first argument kept aside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, Ho⟩, -, -⟩, -⟩
  iapply ((K (F := F)).wp_run (D (F := F)) 𝒱 (EH := EH) (P := P m) κ d 0) $$ [Hst Hx Ho Ha]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Ha]; · iexact Ha
  isplitl [Hx]; · iexact Hx
  iexact Ho

def fq (d : Dev nD) (s' : Phys nD τ sig (Elt F)) : Prop :=
  s'.mem.mem (oLoc d) = tab m d ∧ s'.mem.mem (aLoc d) = m (aLoc d) ∧ s'.mem.mem (xLoc d) = m (xLoc d)

omit [FloatOps F] in
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := tab m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with the result holding the table and both arguments as they were. -/
def QC : PUnit × MemSt nD τ sig (Elt F) → Prop := fun r =>
  ∀ c : Dev nD, r.2.mem (oLoc c) = tab m c ∧ r.2.mem (aLoc c) = m (aLoc c) ∧ r.2.mem (xLoc c) = m (xLoc c)

/-- From a proof of one task, every weakly fair execution of the whole family of threads terminates,
    nothing faulting, in such a memory. -/
theorem run_of_tile [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefOps.lean ====
/-
  The reference program's run, operation by operation.

  The program is one `iota` (the row numbers 0 … 8191) followed by a call of the row-take function, which itself calls
  the three-way select function once.  A call means the callee's body on the operands, so the whole program is a straight
  line of twenty-four host operations: the `iota`; the take function's twenty-two own operations; and, between its sixth
  and seventh, the select function's single one.  Every weakly fair execution of such a line terminates, and each buffer
  ends at the fold of the operations' results over what the launch left in the buffers.
-/
import proofs.«202655_g3478923510319_cont_8to1_b_1543_18_alg».proof.ReferenceIdeal
import proofs.«202655_g3478923510319_cont_8to1_b_1543_18_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The program's twenty-four operations in order, the two calls unfolded at their call sites: the row numbers; then,
    over the call's own buffers, the wrap of negative row numbers (compare with 0, add 8192, select), the row numbers as
    a column, the in-range test (at least 0, at most 8191, both, and-reduced over the unit axis), the row gather, the
    test broadcast over the columns, the not-a-number filler, and the final select. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select ]

/-- The program is that straight line: the two functions' bodies put at their call sites, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- On every device, for any float values, from any memory with zero counters: every weakly fair execution of the
    program terminates, and every final state has each buffer at the fold of the operations' results over the launch
    contents. -/
theorem run_all (m : (ℓ : Loc nD τ sig) → Buf (Elt F) ℓ) (g : Dev nD → PrngReg) :
    θ_run (defs (F := F)) (onTc (τ := τ) (main (F := F))) ⟨m, fun _ => 0, g⟩ fun r =>
      ∀ (c : Dev nD) (b : Ref sig .tc),
        r.2.mem ((c.tc : Thread nD τ).loc b) = after (ops (F := F)) (launchContents m c) (b : DevRef τ sig) :=
  run_seq scopedRefs_eq scopedSems_eq defs main (fun _ => ops) main_eq (fun _ => ops_sub) m g

end Cert.ReferenceIdeal.RefRun

end
-- ==== Proof.LibRowOps.lean ====
/-
  Row gathers and row scatter-adds of a two-axis array, read at one element.

  A gather of rows: operand [N, C], one start word per result row (start indices [E, 1]), result [E, C].  Result element
  (e, c) is the operand at (the start word of row e read signed and clamped into [0, N - 1], c).
  A scatter-add of rows: operand [N, C], one index word per update row, updates [E, C].  Update element (e, c) lands on
  operand element (n, c') exactly when the word of row e, read signed, is n and c = c' (a word out of range lands nowhere).
-/
import Idealize.ShloMosaic.PureOps.Ideal
import Idealize.ShloMosaic.Lib.ValueIdx

noncomputable section

open scoped BigOperators

namespace Cert.Gat.Rows

open Idealize.ShloMosaic Idealize.ShloMosaic.ValueIdx

section Gather
variable {α : Type} {N C E w : Nat}

/-- The dimension numbers of a row gather. -/
abbrev rowDims (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem not_one_mem : ¬ (1 : Fin 2) ∈ ([0] : List (Fin 2)) := by decide
theorem not_zero_mem_one : ¬ (0 : Fin 2) ∈ ([1] : List (Fin 2)) := by decide

/-- The operand row a result element reads: the clamped start word. -/
theorem opIdx0 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (0 : Fin 2) + (rowDims wf).batchCoord (ix2 e c) (0 : Fin 2) + (rowDims wf).offCoord (ix2 e c) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims wf).startIndexMap from List.mem_singleton.mpr rfl)]
  have hsi : (rowDims wf).siIdx (ix2 e c) ⟨List.idxOf (0 : Fin 2) (rowDims wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- The operand column a result element reads: its own. -/
theorem opIdx1 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (1 : Fin 2) + (rowDims wf).batchCoord (ix2 e c) (1 : Fin 2) + (rowDims wf).offCoord (ix2 e c) (1 : Fin 2)
      = c.val := by
  rw [GatherDims.batchCoord_eq_zero _ _ _ List.not_mem_nil]
  unfold GatherDims.start GatherDims.offCoord
  rw [dif_neg (show ¬ (1 : Fin 2) ∈ (rowDims wf).startIndexMap from not_one_mem),
    dif_pos (show (1 : Fin 2) ∈ (rowDims wf).sKept from
      (GatherDims.mem_sKept _ _).mpr ⟨not_one_mem, List.not_mem_nil⟩)]
  simp only [Nat.zero_add]
  rfl

/-- A row gather at (e, c): the operand at (the clamped start word of row e, c). -/
theorem gather_row_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ => exact opIdx0 wf idx e c
  | ⟨1, _⟩ => exact opIdx1 wf idx e c

end Gather

section Scatter
variable {N C E w : Nat}

/-- The dimension numbers of a row scatter. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (0 : Fin 2) = (idx (ix2 e ⟨0, Nat.one_pos⟩)).toInt := by
  unfold ScatterDims.start
  rw [dif_pos (show (0 : Fin 2) ∈ (rowScatter wf).scatterDimsToOperandDims from List.mem_singleton.mpr rfl)]
  congr 2
  funext b; refine Fin.ext ?_
  match b with
  | ⟨0, _⟩ => rfl
  | ⟨1, _⟩ => rfl

theorem start1 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (1 : Fin 2) = 0 := by
  unfold ScatterDims.start
  rw [dif_neg (show ¬ (1 : Fin 2) ∈ (rowScatter wf).scatterDimsToOperandDims from not_one_mem)]

theorem window0 (wf : ScatterDims.WF ⟨2, ![N, C]⟩ ⟨2, ![E, 1]⟩ ⟨2, ![E, C]⟩ [1] [0] [0] 1) (e : Fin E) (c : Fin C) :
    (rowScatter wf).window (ix2 e c) (0 : Fin 2) = 0 := by
  unfold ScatterDims.window
  rw [dif_neg (show ¬ (0 : Fin 2) ∈ (rowScatter wf).sKept from by simp [ScatterDims.sKept, Shape.kept, List.mem_filter, List.mem_finRange])]

theorem window1 (wf : ScatterDims.WF ⟨2, ![N, C]⟩ ⟨2, ![E, 1]⟩ ⟨2, ![E, C]⟩ [1] [0] [0] 1) (e : Fin E) (c : Fin C) :
    (rowScatter wf).window (ix2 e c) (1 : Fin 2) = c.val := by
  unfold ScatterDims.window
  rw [dif_pos (show (1 : Fin 2) ∈ (rowScatter wf).sKept from by simp [ScatterDims.sKept, Shape.kept, List.mem_filter, List.mem_finRange])]
  rfl

/-- Where an update element lands. -/
theorem lands_iff (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatter wf).resultIdx? (ix2 e c) idx = some (ix2 n c')
      ↔ (idx (ix2 e ⟨0, Nat.one_pos⟩)).toInt = (n.val : Int) ∧ c = c' := by
  unfold ScatterDims.resultIdx?
  have h0 := start0 wf idx e c
  have h1 := start1 wf idx e c
  have w0 := window0 wf e c
  have w1 := window1 wf e c
  constructor
  · intro h
    split at h
    · rename_i hall
      have hv := Option.some.inj h
      have e0 := congrArg (fun f => (f (0 : Fin 2) : Fin _).val) hv
      have e1 := congrArg (fun f => (f (1 : Fin 2) : Fin _).val) hv
      simp only [h0, h1, w0, w1] at e0 e1
      have hb := hall (0 : Fin 2)
      rw [h0, w0] at hb
      refine ⟨?_, Fin.ext ?_⟩
      · have : ((idx (ix2 e ⟨0, Nat.one_pos⟩)).toInt + ((0 : Nat) : Int)).toNat = n.val := e0
        omega
      · have : ((0 : Int) + ((c.val : Nat) : Int)).toNat = c'.val := e1
        omega
    · exact absurd h (by simp)
  · rintro ⟨hn, rfl⟩
    have hall : ∀ a : Fin 2, 0 ≤ (rowScatter wf).start (ix2 e c) idx a + (rowScatter wf).window (ix2 e c) a ∧
        (rowScatter wf).start (ix2 e c) idx a + (rowScatter wf).window (ix2 e c) a < (⟨2, ![N, C]⟩ : Shape).size a := by
      intro a
      match a with
      | ⟨0, _⟩ =>
        show 0 ≤ (rowScatter wf).start (ix2 e c) idx (0 : Fin 2) + (((rowScatter wf).window (ix2 e c) (0 : Fin 2) : Nat) : Int) ∧
          (rowScatter wf).start (ix2 e c) idx (0 : Fin 2) + (((rowScatter wf).window (ix2 e c) (0 : Fin 2) : Nat) : Int) < ((N : Nat) : Int)
        rw [h0, w0, hn]
        have := n.isLt
        omega
      | ⟨1, _⟩ =>
        show 0 ≤ (rowScatter wf).start (ix2 e c) idx (1 : Fin 2) + (((rowScatter wf).window (ix2 e c) (1 : Fin 2) : Nat) : Int) ∧
          (rowScatter wf).start (ix2 e c) idx (1 : Fin 2) + (((rowScatter wf).window (ix2 e c) (1 : Fin 2) : Nat) : Int) < ((C : Nat) : Int)
        rw [h1, w1]
        have := c.isLt
        omega
    rw [dif_pos hall]
    congr 1
    funext a
    refine Fin.ext ?_
    match a with
    | ⟨0, _⟩ =>
      show ((rowScatter wf).start (ix2 e c) idx (0 : Fin 2) + (rowScatter wf).window (ix2 e c) (0 : Fin 2)).toNat = n.val
      rw [h0, w0, hn]; omega
    | ⟨1, _⟩ =>
      show ((rowScatter wf).start (ix2 e c) idx (1 : Fin 2) + (rowScatter wf).window (ix2 e c) (1 : Fin 2)).toNat = c.val
      rw [h1, w1]; omega

/-- The sum over the update elements that land on (n, c') is the sum, over the rows whose word is n, of column c'. -/
theorem sum_lands {β : Type} [AddCommMonoid β]
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx → β) (n : Fin N) (c' : Fin C) :
    ∑ j ∈ Finset.univ.filter (fun j => (rowScatter wf).resultIdx? j idx = some (ix2 n c')), u j
      = ∑ e ∈ Finset.univ.filter (fun e : Fin E => (idx (ix2 e ⟨0, Nat.one_pos⟩)).toInt = (n.val : Int)), u (ix2 e c') := by
  symm
  refine Finset.sum_bij (fun e _ => ix2 e c') ?_ ?_ ?_ ?_
  · intro e he
    rw [Finset.mem_filter] at he ⊢
    exact ⟨Finset.mem_univ _, (lands_iff wf idx e c' n c').mpr ⟨he.2, rfl⟩⟩
  · intro e _ e' _ h
    have := congrFun h (0 : Fin 2)
    exact this
  · intro j hj
    rw [Finset.mem_filter] at hj
    rw [eq_ix2 j] at hj
    obtain ⟨hn, hc⟩ := (lands_iff wf idx (j 0) (j 1) n c').mp hj.2
    refine ⟨j 0, Finset.mem_filter.mpr ⟨Finset.mem_univ _, hn⟩, ?_⟩
    rw [← hc]; exact (eq_ix2 j).symm
  · intro e _; rfl

end Scatter

end Cert.Gat.Rows

end
-- ==== Proof.RefValue.lean ====
/-
  The value the reference computes: the table itself.

  The reference takes rows of the table at the row numbers 0 … 8191, in the filling mode: a negative row number is
  wrapped by adding 8192; a row number outside 0 … 8191 after the wrap yields a row of not-a-numbers.  Here the row
  numbers are the `iota` 0, 1, …, 8191 themselves, as 32-bit words.  Read signed, such a word `k` is the number `k`:
  it is not negative, so the wrap leaves it; it is at least 0 and at most 8191, so the in-range test — the conjunction of
  the two comparisons, and-reduced over an axis of extent one — is true in every row; and the row gather, which reads the
  start word signed and clamps it into 0 … 8191, reads row `k` at row `k`.  So the result is the table, element by
  element, whatever the table holds and whatever the filler is.
-/
import proofs.«202655_g3478923510319_cont_8to1_b_1543_18_alg».proof.ReferenceIdeal
import proofs.«202655_g3478923510319_cont_8to1_b_1543_18_alg».proof.Proof.LibRowOps
import Idealize.ShloMosaic.PureOps.Reduce
import Idealize.ShloMosaic.Lib.ValueIdx

noncomputable section

namespace Cert.ReferenceIdeal.RefRun

open Cert.ReferenceIdeal Cert.ReferenceIdeal.Facts₀ Idealize.ShloMosaic Idealize.ShloMosaic.ValueIdx

/-! ## Words below 8192, read signed -/

/-- A 32-bit word holding a number below 8192 reads, signed, as that number. -/
theorem toInt_small (k : Nat) (hk : k < 8192) : (BitVec.ofNat 32 k).toInt = (k : Int) := by
  rw [BitVec.toInt_eq_toNat_of_lt (by rw [BitVec.toNat_ofNat]; omega), BitVec.toNat_ofNat]
  omega

/-- It is not negative … -/
theorem slt_zero_small (k : Nat) (hk : k < 8192) : IntOp.cmpi .slt (BitVec.ofNat 32 k) 0#32 = 0#1 := by
  have h := toInt_small k hk
  have h0 : (0#32 : BitVec 32).toInt = 0 := rfl
  simp only [IntOp.cmpi, BitVec.slt, h, h0]
  rw [decide_eq_false (by omega)]
  rfl

/-- … it is at least 0 … -/
theorem sge_zero_small (k : Nat) (hk : k < 8192) : IntOp.cmpi .sge (BitVec.ofNat 32 k) 0#32 = 1#1 := by
  have h := toInt_small k hk
  have h0 : (0#32 : BitVec 32).toInt = 0 := rfl
  simp only [IntOp.cmpi, BitVec.sle, h, h0]
  rw [decide_eq_true (by omega)]
  rfl

/-- … and at most 8191. -/
theorem sle_max_small (k : Nat) (hk : k < 8192) : IntOp.cmpi .sle (BitVec.ofNat 32 k) 8191#32 = 1#1 := by
  have h := toInt_small k hk
  have h0 : (8191#32 : BitVec 32).toInt = 8191 := rfl
  simp only [IntOp.cmpi, BitVec.sle, h, h0]
  rw [decide_eq_true (by omega)]
  rfl

/-- Clamped into 0 … 8191 it is itself. -/
theorem clamp_small (k : Nat) (hk : k < 8192) : min (BitVec.ofNat 32 k).toInt.toNat (8192 - 1) = k := by
  rw [toInt_small k hk]
  omega

/-- A fold of `and` from 1 over one-bit words that are all 1 is 1. -/
theorem foldl_andi_one {ι : Type} (g : ι → BitVec 1) (hg : ∀ n, g n = 1#1) :
    ∀ l : List ι, l.foldl (fun r n => IntOp.andi r (g n)) 1#1 = 1#1
  | [] => rfl
  | a :: l => by
    have h11 : IntOp.andi (1#1 : BitVec 1) 1#1 = 1#1 := rfl
    rw [List.foldl_cons, hg a, h11]
    exact foldl_andi_one g hg l

/-! ## The stages of the take -/

variable [Cert.ReferenceIdeal.Facts]

/-- The row numbers after the wrap of the negative ones: where the number is below 0, the number plus 8192. -/
def rows : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32)))
    (iotaInDim S8192 32 0)

/-- The same as a column: one start word per result row. -/
def col : IVec S8192x1 32 := broadcastInDim S8192x1 ![0] bcast_S8192_S8192x1_0 rows

/-- The in-range test per row: at least 0 and at most 8191, and-reduced over the unit axis. -/
def inRange : IVec S8192 1 :=
  Host.reduce IntOp.andi
    (andi (cmpi .sge col (broadcastInDim S8192x1 ![] bcast_S_S8192x1 (constantI S_ 32 0#32)))
      (cmpi .sle col (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The rows of `x` at the start words, the rows whose word is out of range replaced by the filler's. -/
def taken {α : Type} (x filler : S8192x1024.Idx → α) : S8192x1024.Idx → α :=
  select (broadcastInDim S8192x1024 ![0] bcast_S8192_S8192x1024_0 inRange)
    (Host.gather gather_S8192x1024_S8192x1_S8192x1024_1_0_n_n_0_1_11024 x col) filler

/-- Row `i`'s number after the wrap is `i`: it is not negative. -/
theorem rows_apply (i : S8192.Idx) : rows i = BitVec.ofNat 32 (i 0).val := by
  have hk : (i 0).val < 8192 := (i 0).isLt
  show Scalar.select (IntOp.cmpi .slt (BitVec.ofNat 32 (i 0).val) 0#32)
    (IntOp.addi (BitVec.ofNat 32 (i 0).val) 8192#32) (BitVec.ofNat 32 (i 0).val) = _
  rw [slt_zero_small _ hk, select_zero]

/-- The column's word in row `j 0` is `j 0`. -/
theorem col_apply (j : S8192x1.Idx) : col j = BitVec.ofNat 32 (j 0).val := by
  show rows _ = _
  rw [rows_apply]
  rfl

/-- Every row is in range. -/
theorem inRange_apply (i : S8192.Idx) : inRange i = 1#1 := by
  unfold inRange
  rw [Host.reduce_eq_foldl]
  refine foldl_andi_one _ (fun j => ?_) _
  have hk : (j 0).val < 8192 := (j 0).isLt
  show IntOp.andi (IntOp.cmpi .sge (col j) 0#32) (IntOp.cmpi .sle (col j) 8191#32) = 1#1
  rw [col_apply, sge_zero_small _ hk, sle_max_small _ hk]
  rfl

/-- The take is the identity: every row is in range and is read where it stands. -/
theorem taken_eq {α : Type} (x filler : S8192x1024.Idx → α) : taken x filler = x := by
  funext y
  obtain ⟨e, c, rfl⟩ : ∃ (e : Fin 8192) (c : Fin 1024), y = ix2 e c := ⟨y 0, y 1, eq_ix2 y⟩
  show Scalar.select (inRange _)
    (Host.gather gather_S8192x1024_S8192x1_S8192x1024_1_0_n_n_0_1_11024 x col (ix2 e c)) (filler (ix2 e c)) = x (ix2 e c)
  rw [inRange_apply, select_one]
  refine (Cert.Gat.Rows.gather_row_apply (N := 8192) (C := 1024) (E := 8192) (by decide)
    gather_S8192x1024_S8192x1_S8192x1024_1_0_n_n_0_1_11024_wf x col e c).trans ?_
  refine congrArg x ?_
  funext a
  match a with
  | ⟨0, _⟩ =>
    refine Fin.ext ?_
    show min (col (ix2 e ⟨0, Nat.one_pos⟩)).toInt.toNat (8192 - 1) = e.val
    rw [col_apply]
    exact clamp_small e.val e.isLt
  | ⟨1, _⟩ => rfl

end Cert.ReferenceIdeal.RefRun

end
-- ==== Proof.RefRun.lean ====
/-
  The reference's run and its value.

  Every weakly fair execution of the reference terminates, and it ends with the result buffer holding the table the
  second argument held at launch, both arguments unchanged: the result buffer ends at the fold of the twenty-four
  operations over the launch contents; at the result buffer that fold is the take of the table at the row numbers
  0 … 8191 with the not-a-number filler; and that take is the table.  Nothing is asked of the table's elements.
-/
import proofs.«202655_g3478923510319_cont_8to1_b_1543_18_alg».proof.Proof.RefOps
import proofs.«202655_g3478923510319_cont_8to1_b_1543_18_alg».proof.Proof.RefValue

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- After the operations, from any contents, the result buffer holds the take of what the table's buffer held. -/
theorem out_eq (V : Valuation τ sig (Elt F)) :
    (after (ops (F := F)) V (main_v1 : DevRef τ sig) : S8192x1024.Idx → F .f32)
      = taken (α := F .f32) (V (main_arg1 : DevRef τ sig))
          (broadcastInDim S8192x1024 ![] bcast_S_S8192x1024 (constant (F := F) S_ .f32 0x7FC00000#32)) := by
  after_results_simp
  simp only [TRef.toBuf, TRef.ofBuf, cast_eq]
  rfl

/-- No operation writes the first argument's buffer. -/
theorem arg0_eq (V : Valuation τ sig (Elt F)) :
    after (ops (F := F)) V (main_arg0 : DevRef τ sig) = V (main_arg0 : DevRef τ sig) := by
  after_results_simp

/-- No operation writes the table's buffer. -/
theorem arg1_eq (V : Valuation τ sig (Elt F)) :
    after (ops (F := F)) V (main_arg1 : DevRef τ sig) = V (main_arg1 : DevRef τ sig) := by
  after_results_simp

/-- On every device, for any float values, from any memory with zero counters: every weakly fair execution of the
    reference terminates with the result buffer at the table's launch contents and both arguments unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c =>
      ⟨(h c main_v1).trans ((out_eq (launchContents m c)).trans (taken_eq _ _)),
        (h c main_arg0).trans (arg0_eq (launchContents m c)),
        (h c main_arg1).trans (arg1_eq (launchContents m c))⟩)
    (run_all m g)

end Cert.ReferenceIdeal.RefRun

end
-- ==== Proof.lean ====
/-
  A row copy on the SparseCores against `jnp.take(table, arange(8192), axis=0)`.

  The kernel: thirty-two vector subcores, subcore i of SparseCore c owning rows [(2·i + c)·256, +256) of the
  table f32[8192,1024], each moves its rows to the same rows of the result in eight chunks of 32 rows through
  three slots of scratch memory.  Its eight chunks, over the thirty-two subcores, are the 256 chunks of the
  array, pairwise disjoint and covering it, and a copy carries its source's rows as they stand: so the result
  ends holding the table, element by element, at either float instance, and both arguments end unchanged.

  The reference: the indices 0 … 8191 are non-negative and at most 8191, so jnp's wrap-around of negative
  indices leaves them alone, the row gather clamps nothing, the in-range mask is all true and the fill value is
  never selected: its result is the table too.

  Hence the three frames, and the results of the two idealized programs agree from memories that agree on the
  arguments; the idealization rewrote nothing, so there is nothing to preserve.  No finiteness of the inputs is used.
-/
import proofs.«202655_g3478923510319_cont_8to1_b_1543_18_alg».proof.Defs
import proofs.«202655_g3478923510319_cont_8to1_b_1543_18_alg».proof.Proof.Gen.Kernel
import proofs.«202655_g3478923510319_cont_8to1_b_1543_18_alg».proof.Proof.Gen.Kernel.Skeleton
import proofs.«202655_g3478923510319_cont_8to1_b_1543_18_alg».proof.Proof.Gen.KernelIdeal
import proofs.«202655_g3478923510319_cont_8to1_b_1543_18_alg».proof.Proof.Gen.KernelIdeal.Skeleton
import proofs.«202655_g3478923510319_cont_8to1_b_1543_18_alg».proof.Proof.Gen.ReferenceIdeal
import proofs.«202655_g3478923510319_cont_8to1_b_1543_18_alg».proof.Proof.Gen.Pre_finite_inputs
import proofs.«202655_g3478923510319_cont_8to1_b_1543_18_alg».proof.Proof.KITile
import proofs.«202655_g3478923510319_cont_8to1_b_1543_18_alg».proof.Proof.KILaunch
import proofs.«202655_g3478923510319_cont_8to1_b_1543_18_alg».proof.Proof.KBTile
import proofs.«202655_g3478923510319_cont_8to1_b_1543_18_alg».proof.Proof.KBLaunch
import proofs.«202655_g3478923510319_cont_8to1_b_1543_18_alg».proof.Proof.RefRun
import Idealize.ShloMosaic.Adequacy
import Idealize.ShloMosaic.Init

noncomputable section

namespace Cert.Proof

open Idealize.ShloMosaic Idealize.SL.Sem

/-- The word-level kernel runs, and its arguments end unchanged. -/
theorem frame_k : Cert.frame_Kernel := fun m g _ =>
  (θ_run Cert.Kernel.defs _ _).mono (fun _ h c => (h c).2) (KB.run_of_tile (F := Bits) m g (KB.tileObl m KB.facts))

/-- The idealized kernel runs, and its arguments end unchanged. -/
theorem frame_ki : Cert.frame_KernelIdeal := fun m g _ =>
  (θ_run Cert.KernelIdeal.defs _ _).mono (fun _ h c => (h c).2) (KI.run_of_tile (F := Ideal) m g (KI.tileObl m KI.facts))

/-- The reference runs, and its arguments end unchanged. -/
theorem frame_ri : Cert.frame_ReferenceIdeal := fun m g _ =>
  (θ_run Cert.ReferenceIdeal.defs _ _).mono (fun _ h c => (h c).2) (Cert.ReferenceIdeal.RefRun.run (F := Ideal) m g)

/-- Both idealized programs end with the table in their result. -/
theorem algebraic : Cert.algebraic_KernelIdeal_ReferenceIdeal := by
  intro m g m' g' _ hagree
  refine ⟨fun c => KI.tab m c, ?_, ?_⟩
  · exact (θ_run Cert.KernelIdeal.defs _ _).mono (fun _ h c => h c) (KI.run_of_tile (F := Ideal) m g (KI.tileObl m KI.facts))
  · exact (θ_run Cert.ReferenceIdeal.defs _ _).mono (fun _ h c => ⟨(h c).1.trans (hagree c).2, (h c).2⟩)
      (Cert.ReferenceIdeal.RefRun.run (F := Ideal) m' g')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
